-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S4000x128 : Shape := ⟨2, ![4000, 128]⟩
abbrev S4000x1 : Shape := ⟨2, ![4000, 1]⟩
abbrev S4000 : Shape := ⟨1, ![4000]⟩

abbrev nBuf : Space → Nat
  | .hbm => 53
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S1x128, .f32⟩
  | .hbm, ⟨36, _⟩ => ⟨S100000x128, .bf16⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .bf16⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S1x128, .f32⟩
  | .hbm, ⟨52, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4000x1, .f32⟩
  | .local _ .vmem, ⟨8, _⟩ => ⟨S4000x1, .f32⟩
  | .local _ .vmem, ⟨9, _⟩ => ⟨S4000x128, .bf16⟩
  | .local _ .vmem, ⟨10, _⟩ => ⟨S4000x128, .bf16⟩
  | .local _ .vmem, ⟨11, _⟩ => ⟨S4000x128, .bf16⟩
  | .local _ .vmem, ⟨12, _⟩ => ⟨S4000x128, .bf16⟩
  | .local _ .vmem, ⟨13, _⟩ => ⟨S4000x128, .f32⟩
  | .local _ .vmem, ⟨14, _⟩ => ⟨S4000x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S4000x1, .f32⟩
  | .local _ .vmem, ⟨19, _⟩ => ⟨S4000x1, .f32⟩
  | .local _ .vmem, ⟨20, _⟩ => ⟨S4000x128, .f32⟩
  | .local _ .vmem, ⟨21, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4000x1_S4000x128 : S4000x1.Broadcasts S4000x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  reduces_S4000x128_S4000 : S4000x128.Reduces [1] S4000
  shapeCasts_S4000_S4000x1 : S4000.ShapeCasts S4000x1
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x1.size a ≤ S100000x1.size a
  hwx0_5 : ∀ i : grid0.Coords, EltTy.bits .f32 = 32 ∨ (Rect.block (s := S100000x1) S4000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .bf16 = 32 ∨ (Rect.block (s := S100000x128) S4000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .bf16 = 32 ∨ (Rect.block (s := S100000x128) S4000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x1.size a ≤ S100000x1.size a
  hwx1_5 : ∀ i : grid1.Coords, EltTy.bits .f32 = 32 ∨ (Rect.block (s := S100000x1) S4000x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S4000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v20) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v20) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S4000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v33) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000, .f32⟩
  | .hbm, ⟨74, _⟩ => ⟨S100000x1, .f32⟩
  | .hbm, ⟨75, _⟩ => ⟨S100000x1, .f32⟩
  | .hbm, ⟨76, _⟩ => ⟨S_, .f32⟩
  | .hbm, ⟨77, _⟩ => ⟨S100000x1, .f32⟩
  | .hbm, ⟨78, _⟩ => ⟨S100000x1, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call0_cst : Ref sig .tc := ⟨.hbm, 43, rfl⟩
abbrev main_call0_v0 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_call2_v0 : Ref sig .tc := ⟨.hbm, 71, rfl⟩
abbrev main_call2_cst : Ref sig .tc := ⟨.hbm, 72, rfl⟩
abbrev main_call2_v1 : Ref sig .tc := ⟨.hbm, 73, rfl⟩
abbrev main_call2_v2 : Ref sig .tc := ⟨.hbm, 74, rfl⟩
abbrev main_v48 : Ref sig .tc := ⟨.hbm, 75, rfl⟩
abbrev main_cst_8 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run, with its result kept.

  The program is four stretches in a row: host operations, the first layer's grid of blocks, host operations, the
  second layer's grid of blocks. Every weakly fair execution terminates, nothing faulting, and in the final state
  every buffer that is not a staging buffer holds the last boundary's contents: the buffers as launched, folded
  through the host operations and through what each grid's write-backs leave. Read at the result buffer those
  contents are the second grid's output array after all its points; read at an argument they are the argument as
  launched.
-/
import proofs.«131096_j69028714381804_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates with the result buffer at the second grid's output array
    after all its points (its proof data taken at the contents that grid is entered with), the arguments as launched. -/
theorem run_result : θ_run defs (onTc (τ := τ) (main (F := F))) ⟨m, fun _ => 0, ρ⟩ (fun r => ∀ c : Dev nD,
      r.2.mem ((c.tc : Thread nD τ).loc main_v33) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v33 (by decide))).trans (W4_arr m ρ c 6),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Run

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.LibHostLayout.lean ====
/-
  Two host re-layings read at one entry, over any sizes and any element type.

  * A matrix transposed: the result at (i, j) is the matrix at (j, i).
  * A vector of N entries laid as a row [1, N] and then down M rows, by two `broadcast_in_dim`s: the result at (r, c)
    is entry c.
  * A rank-zero value broadcast to a matrix: every entry is the value.
-/
import Idealize.ShloMosaic.Lib.Pipeline.Value
import Idealize.ShloMosaic.Lib.ValueIdx

noncomputable section

namespace Cert.HostLayout

open Idealize.ShloMosaic Idealize.ShloMosaic.ValueIdx

/-- A transposed matrix at (i, j) is the matrix at (j, i). -/
theorem transpose2_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) := by
  refine transpose_apply [1, 0] x h (ix2 i j) (ix2 j i) fun q => ?_
  match q with
  | ⟨0, _⟩ => rfl
  | ⟨1, _⟩ => rfl

/-- A vector laid as a row and then down M rows reads, at (r, c), entry c. -/
theorem biasRow_apply {α : Type} {M N : ℕ} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 v) (ix2 r c) = v (ix1 c) := by
  refine (broadcastInDim_apply _ h2 _ (ix2 r c) (ix2 (0 : Fin 1) c) fun a => ?_).trans
    (broadcastInDim_apply _ h1 v (ix2 (0 : Fin 1) c) (ix1 c) fun a => ?_)
  · match a with
    | ⟨0, _⟩ => show (0 : Fin 1).val = if (1 : Nat) = 1 then 0 else r.val; rw [if_pos rfl]; rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A rank-zero value broadcast to any shape reads the value everywhere. -/
theorem scalar_apply {α : Type} {t : Shape} (u : (⟨0, ![]⟩ : Shape).Idx → α)
    (h : (⟨0, ![]⟩ : Shape).BroadcastsInDim t ![]) (i : t.Idx) :
    broadcastInDim t ![] h u i = u (fun a => a.elim0) :=
  broadcastInDim_apply ![] h u i (fun a => a.elim0) (fun a => a.elim0)

end Cert.HostLayout

end
-- ==== Proof.LibBlockRows.lean ====
/-
  Picking rows out of a matrix, and the layers of a dense graph network read on the picked rows.

  A map ρ from the row numbers of a small matrix to the row numbers of a tall one lays rows ρ 0, ρ 1, … of the
  tall matrix as a matrix of its own (`rowsOf`). Every layer below acts on each row separately, so computing the
  layer on the picked rows gives the picked rows of the layer computed on the whole matrix:

  * a product with a fixed right factor, Σ_k A (r, k) · G (k, c): the matrix unit's product into a zero
    accumulator on the picked rows against the host's plain product on the whole;
  * a bias, one vector of N numbers added to every row: the vector laid as a row and broadcast down the picked
    rows against two host broadcasts down all rows;
  * the entry-by-entry operations (sum, product, maximum, exponential) and a constant splat.

  Everything is on the extended reals, where a change of float format is the identity, so an operand may first
  have been converted to a narrower format.
-/
import Idealize.ShloMosaic.PureOps.Ideal.Laws
import Idealize.ShloMosaic.Lib.Pipeline.Value
import Idealize.ShloMosaic.Lib.ValueIdx
import Idealize.ShloMosaic.Lib.ValueLayout
import proofs.«131096_j69028714381804_2_alg».proof.Proof.LibPlainMatmul
import proofs.«131096_j69028714381804_2_alg».proof.Proof.LibHostReads
import proofs.«131096_j69028714381804_2_alg».proof.Proof.LibHostLayout

noncomputable section

open scoped BigOperators

namespace Cert.BlockRows

open Idealize.ShloMosaic Idealize.ShloMosaic.ValueIdx

variable {TM M K N : Nat}

/-- Rows ρ 0, ρ 1, … of an M-row matrix, laid as a TM-row matrix. -/
def rowsOf {α : Type} (ρ : Fin TM → Fin M) (X : (⟨2, ![M, K]⟩ : Shape).Idx → α) : (⟨2, ![TM, K]⟩ : Shape).Idx → α :=
  fun j => X (ix2 (ρ (j 0)) (j 1))

/-- Entry (p, k) of the picked rows is entry (ρ p, k) of the matrix. -/
theorem rowsOf_apply {α : Type} (ρ : Fin TM → Fin M) (X : (⟨2, ![M, K]⟩ : Shape).Idx → α) (p : Fin TM) (k : Fin K) :
    rowsOf ρ X (ix2 p k) = X (ix2 (ρ p) k) := rfl

/-- Picking every row in place changes nothing. -/
theorem rowsOf_id {α : Type} (X : (⟨2, ![M, K]⟩ : Shape).Idx → α) : rowsOf (fun p : Fin M => p) X = X := by
  funext j
  exact congrArg X (eq_ix2 j).symm

/-- Row p of block t when M rows are cut into n blocks of TM rows each: row TM · t + p. -/
def blockRow (TM n M : Nat) (h : TM * n ≤ M) (t : Fin n) : Fin TM → Fin M := fun p =>
  ⟨TM * t.val + p.val, by
    have ht := t.isLt
    have hp := p.isLt
    calc TM * t.val + p.val < TM * t.val + TM := by omega
      _ = TM * (t.val + 1) := by rw [Nat.mul_succ]
      _ ≤ TM * n := Nat.mul_le_mul_left _ (by omega)
      _ ≤ M := h⟩

/-- Its row number. -/
theorem blockRow_val (TM n M : Nat) (h : TM * n ≤ M) (t : Fin n) (p : Fin TM) :
    (blockRow TM n M h t p).val = TM * t.val + p.val := rfl

/-- A sum of picked rows is the picked rows of the sum. -/
theorem addf_rows {φ : FTy} (ρ : Fin TM → Fin M) (X Y : FVec Ideal ⟨2, ![M, N]⟩ φ) :
    addf (rowsOf ρ X) (rowsOf ρ Y) = rowsOf ρ (addf X Y) := rfl

/-- A product, entry by entry, of picked rows is the picked rows of the product. -/
theorem mulf_rows {φ : FTy} (ρ : Fin TM → Fin M) (X Y : FVec Ideal ⟨2, ![M, N]⟩ φ) :
    mulf (rowsOf ρ X) (rowsOf ρ Y) = rowsOf ρ (mulf X Y) := rfl

/-- The exponential of picked rows is the picked rows of the host's exponential: one function on the extended reals. -/
theorem exp_rows {φ : FTy} (ρ : Fin TM → Fin M) (X : FVec Ideal ⟨2, ![M, N]⟩ φ) :
    exp (rowsOf ρ X) = rowsOf ρ (Host.exp X) := rfl

/-- The host's plain product of an M × K by a K × N matrix. -/
def propagate (A : FVec Ideal ⟨2, ![M, K]⟩ .f32) (G : FVec Ideal ⟨2, ![K, N]⟩ .f32) : FVec Ideal ⟨2, ![M, N]⟩ .f32 :=
  Host.dotGeneral (F := Ideal) (DotDims.plain M K N) none A G

/-- The host's dense layer: the plain product X · W plus the one row B added to every row. -/
def dense (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    FVec Ideal ⟨2, ![M, N]⟩ .f32 :=
  addf (Host.dotGeneral (F := Ideal) (DotDims.plain M K N) none X W) (broadcastInDim ⟨2, ![M, N]⟩ ![0, 1] h2 B)

/-- The host's maximum with zero, the zero a rank-zero constant broadcast to the matrix. -/
def relu (h0 : (⟨0, ![]⟩ : Shape).BroadcastsInDim ⟨2, ![M, N]⟩ ![]) (Y : FVec Ideal ⟨2, ![M, N]⟩ .f32) :
    FVec Ideal ⟨2, ![M, N]⟩ .f32 :=
  maximumf Y (broadcastInDim ⟨2, ![M, N]⟩ ![] h0 (constant (F := Ideal) ⟨0, ![]⟩ .f32 0x00000000#32))

/-- The host's product with a constant, the constant of word `w` broadcast from rank zero. -/
def scaled (w : BitVec 32) (h0 : (⟨0, ![]⟩ : Shape).BroadcastsInDim ⟨2, ![M, N]⟩ ![]) (Y : FVec Ideal ⟨2, ![M, N]⟩ .f32) :
    FVec Ideal ⟨2, ![M, N]⟩ .f32 :=
  mulf (broadcastInDim ⟨2, ![M, N]⟩ ![] h0 (constant (F := Ideal) ⟨0, ![]⟩ .f32 w)) Y

/-- The product with a fixed right factor, row by row: when row p of `a` is row ρ p of `A` and `g` is `G`, the
    matrix unit's product of `a` and `g` into zeros is the picked rows of the host's product of `A` and `G`. -/
theorem matmul_rows (ρ : Fin TM → Fin M) {φ₁ φ₂ : FTy} (prec prec' : Option ContractPrecision)
    (a : FVec Ideal ⟨2, ![TM, K]⟩ φ₁) (g : FVec Ideal ⟨2, ![K, N]⟩ φ₂)
    (A : FVec Ideal ⟨2, ![M, K]⟩ .f32) (G : FVec Ideal ⟨2, ![K, N]⟩ .f32)
    (ha : ∀ (p : Fin TM) (k : Fin K), (a (ix2 p k) : EReal) = A (ix2 (ρ p) k))
    (hg : ∀ (k : Fin K) (n : Fin N), (g (ix2 k n) : EReal) = G (ix2 k n)) :
    matmul (DotDims.plain TM K N) prec a g (constant ⟨2, ![TM, N]⟩ .f32 0x00000000#32)
      = rowsOf ρ (Host.dotGeneral (F := Ideal) (DotDims.plain M K N) prec' A G) := by
  funext j
  obtain ⟨p, c, rfl⟩ : ∃ (p : Fin TM) (c : Fin N), j = ix2 p c := ⟨j 0, j 1, eq_ix2 j⟩
  rw [rowsOf_apply, Cert.LibHostReads.dotGeneral_plain_apply]
  refine (Cert.PlainMatmul.matmul_zero_apply TM K N prec a g p c).trans ?_
  exact Finset.sum_congr rfl fun k _ => congrArg₂ (· * ·) (ha p k) (hg k c)

/-- The propagation step on picked rows: the matrix unit's product, into zeros, of the picked rows of A and the
    whole of G — both first converted to a narrower float format, which changes nothing on the extended reals — is
    the picked rows of the host's product A · G. -/
theorem propagate_rows (ρ : Fin TM → Fin M) {ψ : FTy} (hψ : ψ.bits < FTy.f32.bits)
    (hs : (⟨2, ![K, N]⟩ : Shape).ShapeCasts ⟨2, ![K, N]⟩)
    (A : FVec Ideal ⟨2, ![M, K]⟩ .f32) (G : FVec Ideal ⟨2, ![K, N]⟩ .f32) :
    matmul (DotDims.plain TM K N) none (truncf ψ (rowsOf ρ A) hψ) (truncf ψ (shapeCast ⟨2, ![K, N]⟩ G hs) hψ)
        (constant ⟨2, ![TM, N]⟩ .f32 0x00000000#32)
      = rowsOf ρ (propagate A G) := by
  rw [shapeCast_self]
  exact matmul_rows ρ none none _ _ A G (fun _ _ => rfl) (fun _ _ => rfl)

/-- A dense layer on picked rows: the matrix unit's product of the picked rows of X and the whole of W into zeros,
    plus the row B broadcast down the picked rows, is the picked rows of the host's layer on X. -/
theorem dense_rows (ρ : Fin TM → Fin M)
    (hsw : (⟨2, ![K, N]⟩ : Shape).ShapeCasts ⟨2, ![K, N]⟩) (hs : (⟨2, ![1, N]⟩ : Shape).ShapeCasts ⟨2, ![1, N]⟩)
    (hb : (⟨2, ![1, N]⟩ : Shape).Broadcasts ⟨2, ![TM, N]⟩)
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    addf (matmul (DotDims.plain TM K N) none (rowsOf ρ X) (shapeCast ⟨2, ![K, N]⟩ W hsw)
          (constant ⟨2, ![TM, N]⟩ .f32 0x00000000#32))
        (broadcastTo ⟨2, ![TM, N]⟩ (shapeCast ⟨2, ![1, N]⟩ B hs) hb)
      = rowsOf ρ (dense h2 X W B) := by
  rw [shapeCast_self, shapeCast_self, matmul_rows ρ none none (rowsOf ρ X) W X W (fun _ _ => rfl) (fun _ _ => rfl)]
  unfold dense
  rw [← addf_rows]
  refine congrArg (addf (rowsOf ρ (Host.dotGeneral (F := Ideal) (DotDims.plain M K N) none X W))) ?_
  funext j
  obtain ⟨p, c, rfl⟩ : ∃ (p : Fin TM) (c : Fin N), j = ix2 p c := ⟨j 0, j 1, eq_ix2 j⟩
  rw [broadcastTo_1b_ab_apply, rowsOf_apply]
  refine (broadcastInDim_apply _ h2 B (ix2 (ρ p) c) (ix2 (0 : Fin 1) c) fun a => ?_).symm
  match a with
  | ⟨0, _⟩ => show (0 : Fin 1).val = if (1 : Nat) = 1 then 0 else (ρ p).val; rw [if_pos rfl]; rfl
  | ⟨1, _⟩ =>
    show c.val = if N = 1 then 0 else c.val
    split
    · have := c.isLt; omega
    · rfl

/-- A vector of N numbers reshaped to one row is the same vector broadcast into a row along its one axis. -/
theorem reshape_row {α : Type} (v : (⟨1, ![N]⟩ : Shape).Idx → α) (hs : (⟨1, ![N]⟩ : Shape).ShapeCasts ⟨2, ![1, N]⟩)
    (h1 : (⟨1, ![N]⟩ : Shape).BroadcastsInDim ⟨2, ![1, N]⟩ ![1]) :
    shapeCast ⟨2, ![1, N]⟩ v hs = broadcastInDim ⟨2, ![1, N]⟩ ![1] h1 v := by
  funext i
  obtain ⟨z, c, rfl⟩ : ∃ (z : Fin 1) (c : Fin N), i = ix2 z c := ⟨i 0, i 1, eq_ix2 i⟩
  have hz : z.val = 0 := by have := z.isLt; omega
  refine (shapeCast_apply v hs (ix2 z c) (ix1 c) ?_).trans (broadcastInDim_apply ![1] h1 v (ix2 z c) (ix1 c) fun a => ?_).symm
  · rewrite [Shape.rowMajor_val_two, Shape.rowMajor_val_one]
    show c.val = z.val * N + c.val
    rw [hz]; simp
  · match a with
    | ⟨0, _⟩ =>
      show c.val = if N = 1 then 0 else c.val
      split
      · have := c.isLt; omega
      · rfl

/-- A constant splat over TM rows is the picked rows of the same constant broadcast from rank zero over M rows. -/
theorem splat_rows (ρ : Fin TM → Fin M) (w : BitVec 32) (h : (⟨0, ![]⟩ : Shape).BroadcastsInDim ⟨2, ![M, N]⟩ ![]) :
    (broadcast ⟨2, ![TM, N]⟩ (Scalar.ofBits (F := Ideal) .f32 w) : FVec Ideal ⟨2, ![TM, N]⟩ .f32)
      = rowsOf ρ (broadcastInDim ⟨2, ![M, N]⟩ ![] h (constant (F := Ideal) ⟨0, ![]⟩ .f32 w)) := by
  funext j
  exact (Cert.HostLayout.scalar_apply (constant (F := Ideal) ⟨0, ![]⟩ .f32 w) h (ix2 (ρ (j 0)) (j 1))).symm

/-- The maximum with a splat zero of picked rows is the picked rows of the host's maximum with zero. -/
theorem relu_rows (ρ : Fin TM → Fin M) (h0 : (⟨0, ![]⟩ : Shape).BroadcastsInDim ⟨2, ![M, N]⟩ ![])
    (Y : FVec Ideal ⟨2, ![M, N]⟩ .f32) :
    maximumf (rowsOf ρ Y) (broadcast ⟨2, ![TM, N]⟩ (Scalar.ofBits (F := Ideal) .f32 0x00000000#32)) = rowsOf ρ (relu h0 Y) := by
  rw [splat_rows ρ 0x00000000#32 h0]; rfl

/-- The product of a splat constant with picked rows is the picked rows of the host's product with the constant. -/
theorem scaled_rows (ρ : Fin TM → Fin M) (w : BitVec 32) (h0 : (⟨0, ![]⟩ : Shape).BroadcastsInDim ⟨2, ![M, N]⟩ ![])
    (Y : FVec Ideal ⟨2, ![M, N]⟩ .f32) :
    mulf (broadcast ⟨2, ![TM, N]⟩ (Scalar.ofBits (F := Ideal) .f32 w)) (rowsOf ρ Y) = rowsOf ρ (scaled w h0 Y) := by
  rw [splat_rows ρ w h0]; rfl

end Cert.BlockRows

end
-- ==== Proof.LibColRowBroadcast.lean ====
/-
  Four re-layings of a vector read at one entry, over any sizes and any element type.

  * A vector of `a` entries cast to a column [a, 1]: the column at (p, 0) is entry p.
  * A vector of `b` entries cast to a row [1, b]: the row at (0, q) is entry q.
  * A column [a, 1] broadcast along the lanes to [a, b]: the result at (p, q) is the column at (p, 0).
  * A row [1, b] broadcast down the sublanes to [a, b]: the result at (p, q) is the row at (0, q).

  Between a cast and a broadcast a kernel may apply pointwise operations to the column (a square root, a clamp, a
  reciprocal); reading the two steps separately lets those be read at (p, 0) in between.
-/
import Idealize.ShloMosaic.Lib.Pipeline.Value
import Idealize.ShloMosaic.Lib.ValueIdx

noncomputable section

namespace Cert.ColRowBroadcast

open Idealize.ShloMosaic Idealize.ShloMosaic.ValueIdx

/-- A vector of `a` entries cast to a column reads, at (p, 0), entry `p`. -/
theorem colCast_apply {α : Type} {a : ℕ} (u : (⟨1, ![a]⟩ : Shape).Idx → α)
    (hc : (⟨1, ![a]⟩ : Shape).ShapeCasts ⟨2, ![a, 1]⟩) (p : Fin a) (z : Fin 1) :
    shapeCast ⟨2, ![a, 1]⟩ u hc (ix2 p z) = u (ix1 p) := by
  refine shapeCast_apply u hc (ix2 p z) (ix1 p) ?_
  rw [Shape.rowMajor_val_one, Shape.rowMajor_val_two]
  show p.val = p.val * 1 + z.val
  have := z.isLt
  omega

/-- A vector of `b` entries cast to a row reads, at (0, q), entry `q`. -/
theorem rowCast_apply {α : Type} {b : ℕ} (u : (⟨1, ![b]⟩ : Shape).Idx → α)
    (hc : (⟨1, ![b]⟩ : Shape).ShapeCasts ⟨2, ![1, b]⟩) (z : Fin 1) (q : Fin b) :
    shapeCast ⟨2, ![1, b]⟩ u hc (ix2 z q) = u (ix1 q) := by
  refine shapeCast_apply u hc (ix2 z q) (ix1 q) ?_
  rw [Shape.rowMajor_val_one, Shape.rowMajor_val_two]
  show q.val = z.val * b + q.val
  have hz : z.val = 0 := by have := z.isLt; omega
  rw [hz, Nat.zero_mul, Nat.zero_add]

/-- A column broadcast along the lanes reads, at (p, q), the column at (p, 0). -/
theorem colBroadcast_apply {α : Type} {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply w hb (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A row broadcast down the sublanes reads, at (p, q), the row at (0, q). -/
theorem rowBroadcast_apply {α : Type} {a b : ℕ} (w : (⟨2, ![1, b]⟩ : Shape).Idx → α)
    (hb : (⟨2, ![1, b]⟩ : Shape).Broadcasts ⟨2, ![a, b]⟩) (p : Fin a) (q : Fin b) :
    broadcastTo ⟨2, ![a, b]⟩ w hb (ix2 p q) = w (ix2 (0 : Fin 1) q) := by
  refine broadcastTo_apply w hb (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

end Cert.ColRowBroadcast

end
-- ==== Proof.LibRmsNorm.lean ====
/-
  Root-mean-square normalisation of the rows of a matrix, read one row at a time on the extended reals, over any sizes.

  A row r of N entries is scaled by s(r) = rsqrt((Σ_k r_k · r_k) / c + e), where c and e are the numbers two given 32-bit
  words encode (the row length and a small offset, as the program spells them), and then multiplied entry by entry
  by a gain row g:   rowNorm r g q = r_q · s(r) · g_q.

  The same function is computed two ways. On the vector unit: square, sum along the lanes from zero, lay the sums
  out as a column, divide, add, take the reciprocal square root, spread the column along the lanes, multiply; the
  gain row laid out as a row and spread down the sublanes. On the host: square, reduce-add over the last axis from a
  scalar zero, broadcast to a column, divide by a broadcast scalar, add a broadcast scalar, reciprocal square root,
  broadcast along the last axis, multiply; the gain broadcast to a row and then down the rows. Both, read at
  row p, are rowNorm of row p of the operand. Nothing here needs the entries to be finite: both sides apply the same
  operations to the same sums.

  Also here: the vocabulary of rows (row p of a matrix, a vector as a function of its coordinate, a matrix as a function
  of two coordinates), and a row times a matrix.
-/
import Idealize.ShloMosaic.PureOps.Ideal.Laws
import Idealize.ShloMosaic.Lib.Pipeline.Value
import Idealize.ShloMosaic.Lib.ValueIdx
import proofs.«131096_j69028714381804_2_alg».proof.Proof.LibColRowBroadcast

noncomputable section

open scoped BigOperators

namespace Cert.RmsNorm

open Idealize.ShloMosaic Idealize.ShloMosaic.ValueIdx

/-! ## Rows -/

/-- Row `p` of a matrix, as a function of the column. -/
def row {M N : ℕ} (a : (⟨2, ![M, N]⟩ : Shape).Idx → EReal) (p : Fin M) : Fin N → EReal := fun k => a (ix2 p k)

/-- A vector as a function of its coordinate. -/
def vec {N : ℕ} (g : (⟨1, ![N]⟩ : Shape).Idx → EReal) : Fin N → EReal := fun k => g (ix1 k)

/-- A matrix as a function of its two coordinates. -/
def mat {K N : ℕ} (w : (⟨2, ![K, N]⟩ : Shape).Idx → EReal) : Fin K → Fin N → EReal := fun k q => w (ix2 k q)

/-- A row times a matrix: entry q is Σ_k r_k · w_{k q}. -/
def rowMat {K N : ℕ} (r : Fin K → EReal) (w : Fin K → Fin N → EReal) : Fin N → EReal := fun q => ∑ k, r k * w k q

/-- The scale of a row: the reciprocal square root of (Σ_k r_k² divided by the number `cN` encodes, plus the number
    `ce` encodes). -/
def scale {N : ℕ} (cN ce : BitVec 32) (r : Fin N → EReal) : EReal :=
  Ideal.rsqrt (Ideal.div (∑ k, r k * r k) (Ideal.ofBits .f32 cN) + Ideal.ofBits .f32 ce)

/-- A row normalised by its scale and multiplied entry by entry by a gain row. -/
def rowNorm {N : ℕ} (cN ce : BitVec 32) (r g : Fin N → EReal) : Fin N → EReal := fun q => r q * scale cN ce r * g q

/-- Rows of equal matrices' sums: row p of a pointwise sum is the sum of the rows. -/
theorem row_addf {M N : ℕ} (a b : FVec Ideal ⟨2, ![M, N]⟩ .f32) (p : Fin M) :
    row (addf a b) p = fun q => row a p q + row b p q := rfl

/-! ## On the vector unit -/

/-- The reduced index `p` with lane `k` put back is (p, k). -/
theorem lift_lane {M N : ℕ} (h : (⟨2, ![M, N]⟩ : Shape).Reduces [1] (⟨1, ![M]⟩ : Shape)) (p : Fin M)
    (k : Fin ((⟨2, ![M, N]⟩ : Shape).size 1)) : h.lift (ix1 p) k = ix2 p (⟨k.val, k.isLt⟩ : Fin N) := by
  funext c; apply Fin.ext
  fin_cases c <;> rfl

/-- A sum along the lanes from zero, at row `p`, is the sum of the row. -/
theorem laneSum_apply {M N : ℕ} (src : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ) (p : Fin M) :
    multiReduction .add [1] ⟨1, ![M]⟩ src 0x00000000#32 hr hφ hacc (ix1 p) = ∑ k : Fin N, src (ix2 p k) := by
  refine (Ideal.multiReduction_add_single src 0x00000000#32 hr hφ hacc (ix1 p)).trans ?_
  exact Finset.sum_congr rfl fun k _ => congrArg src (lift_lane hr p k)

/-- The column of scales as the vector unit computes it. -/
def colScale {M N : ℕ} (cN ce : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) : FVec Ideal ⟨2, ![M, 1]⟩ .f32 :=
  rsqrt (addf (divf (shapeCast ⟨2, ![M, 1]⟩ (multiReduction .add [1] ⟨1, ![M]⟩ (mulf a a) 0x00000000#32 hr hφ hacc) hc)
    (broadcast ⟨2, ![M, 1]⟩ (Scalar.ofBits .f32 cN))) (broadcast ⟨2, ![M, 1]⟩ (Scalar.ofBits .f32 ce)))

/-- The column of scales at row `p` is the scale of row `p`. -/
theorem colScale_apply {M N : ℕ} (cN ce : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (p : Fin M) (z : Fin 1) :
    colScale cN ce a hr hφ hacc hc (ix2 p z) = scale cN ce (row a p) := by
  have h1 : shapeCast ⟨2, ![M, 1]⟩ (multiReduction .add [1] ⟨1, ![M]⟩ (mulf a a) 0x00000000#32 hr hφ hacc) hc (ix2 p z)
      = ∑ k : Fin N, row a p k * row a p k :=
    (Cert.ColRowBroadcast.colCast_apply _ hc p z).trans (laneSum_apply (mulf a a) hr hφ hacc p)
  exact congrArg (fun s => Ideal.rsqrt (Ideal.div s (Ideal.ofBits .f32 cN) + Ideal.ofBits .f32 ce)) h1

/-- Root-mean-square normalisation of the rows of `a` with gain `g`, as the vector unit computes it. -/
def vectorNorm {M N : ℕ} (cN ce : BitVec 32) (a : FVec Ideal ⟨2, ![M, N]⟩ .f32) (g : FVec Ideal ⟨1, ![N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩)
    (hg : (⟨1, ![N]⟩ : Shape).ShapeCasts ⟨2, ![1, N]⟩) (hgb : (⟨2, ![1, N]⟩ : Shape).Broadcasts ⟨2, ![M, N]⟩) :
    FVec Ideal ⟨2, ![M, N]⟩ .f32 :=
  mulf (mulf a (broadcastTo ⟨2, ![M, N]⟩ (colScale cN ce a hr hφ hacc hc) hb))
    (broadcastTo ⟨2, ![M, N]⟩ (shapeCast ⟨2, ![1, N]⟩ g hg) hgb)

/-- Row `p` of the vector unit's normalisation is rowNorm of row `p`. -/
theorem vectorNorm_row {M N : ℕ} (cN ce : BitVec 32) (a : FVec Ideal ⟨2, ![M, N]⟩ .f32) (g : FVec Ideal ⟨1, ![N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩)
    (hg : (⟨1, ![N]⟩ : Shape).ShapeCasts ⟨2, ![1, N]⟩) (hgb : (⟨2, ![1, N]⟩ : Shape).Broadcasts ⟨2, ![M, N]⟩) (p : Fin M) :
    row (vectorNorm cN ce a g hr hφ hacc hc hb hg hgb) p = rowNorm cN ce (row a p) (vec g) := by
  funext q
  have hs : broadcastTo ⟨2, ![M, N]⟩ (colScale cN ce a hr hφ hacc hc) hb (ix2 p q) = scale cN ce (row a p) :=
    (Cert.ColRowBroadcast.colBroadcast_apply _ hb p q).trans (colScale_apply cN ce a hr hφ hacc hc p 0)
  have hq : broadcastTo ⟨2, ![M, N]⟩ (shapeCast ⟨2, ![1, N]⟩ g hg) hgb (ix2 p q) = vec g q :=
    (Cert.ColRowBroadcast.rowBroadcast_apply _ hgb p q).trans (Cert.ColRowBroadcast.rowCast_apply g hg 0 q)
  show a (ix2 p q) * broadcastTo ⟨2, ![M, N]⟩ (colScale cN ce a hr hφ hacc hc) hb (ix2 p q)
      * broadcastTo ⟨2, ![M, N]⟩ (shapeCast ⟨2, ![1, N]⟩ g hg) hgb (ix2 p q) = _
  rw [hs, hq]
  rfl

/-! ## On the host -/

/-- The host's sum over the last axis from a scalar zero, at row `p`, is the sum of the row. -/
theorem hostSum_apply {M N : ℕ} (src : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel) (p : Fin M) :
    Host.reduceAdd src (constant (F := Ideal) ⟨0, ![]⟩ .f32 0x00000000#32) hrt h0 (ix1 p) = ∑ k : Fin N, src (ix2 p k) := by
  show Ideal.hostReduceAdd hrt src (Ideal.ofBits .f32 0x00000000#32) (ix1 p) = _
  rw [Ideal.hostReduceAdd_single hrt hr, Ideal.ofBits_zero_f32, zero_add]
  exact Finset.sum_congr rfl fun k _ => congrArg src (lift_lane hr p k)

/-- A scalar broadcast to any shape reads the scalar everywhere. -/
theorem scalarBroadcast_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 (fun a => a.elim0)

/-- A vector of `a` entries broadcast to a column [a, 1] reads, at (p, 0), entry `p`. -/
theorem hostCol_apply {α : Type} {a : ℕ} (u : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h u (ix2 p z) = u (ix1 p) := by
  refine broadcastInDim_apply _ h u (ix2 p z) (ix1 p) fun c => ?_
  match c with
  | ⟨0, _⟩ =>
    show p.val = if a = 1 then 0 else p.val
    split
    · have := p.isLt; omega
    · rfl

/-- A column [a, 1] broadcast along the last axis to [a, b] reads, at (p, q), the column at (p, 0). -/
theorem hostColBroadcast_apply {α : Type} {a b : ℕ} (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply _ h w (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A vector of `b` entries broadcast to a row [1, b] reads, at (0, q), entry `q`. -/
theorem hostRow_apply {α : Type} {b : ℕ} (u : (⟨1, ![b]⟩ : Shape).Idx → α)
    (h : (⟨1, ![b]⟩ : Shape).BroadcastsInDim ⟨2, ![1, b]⟩ ![1]) (z : Fin 1) (q : Fin b) :
    broadcastInDim ⟨2, ![1, b]⟩ ![1] h u (ix2 z q) = u (ix1 q) := by
  refine broadcastInDim_apply _ h u (ix2 z q) (ix1 q) fun c => ?_
  match c with
  | ⟨0, _⟩ =>
    show q.val = if b = 1 then 0 else q.val
    split
    · have := q.isLt; omega
    · rfl

/-- A row [1, b] broadcast down the first axis to [a, b] reads, at (p, q), the row at (0, q). -/
theorem hostRowBroadcast_apply {α : Type} {a b : ℕ} (w : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h w (ix2 p q) = w (ix2 (0 : Fin 1) q) := by
  refine broadcastInDim_apply _ h w (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

/-- The column of scales as the host computes it. -/
def hostColScale {M N : ℕ} (cN ce : BitVec 32) (a : FVec Ideal ⟨2, ![M, N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![]) : FVec Ideal ⟨2, ![M, 1]⟩ .f32 :=
  Host.rsqrt (addf (Host.divf
      (broadcastInDim ⟨2, ![M, 1]⟩ ![0] hb1 (Host.reduceAdd (mulf a a) (constant (F := Ideal) ⟨0, ![]⟩ .f32 0x00000000#32) hrt h0))
      (broadcastInDim ⟨2, ![M, 1]⟩ ![] hbs (constant (F := Ideal) ⟨0, ![]⟩ .f32 cN)))
    (broadcastInDim ⟨2, ![M, 1]⟩ ![] hbs (constant (F := Ideal) ⟨0, ![]⟩ .f32 ce)))

/-- The host's column of scales at row `p` is the scale of row `p`. -/
theorem hostColScale_apply {M N : ℕ} (cN ce : BitVec 32) (a : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![]) (p : Fin M) (z : Fin 1) :
    hostColScale cN ce a hrt h0 hb1 hbs (ix2 p z) = scale cN ce (row a p) := by
  have h1 : broadcastInDim ⟨2, ![M, 1]⟩ ![0] hb1
        (Host.reduceAdd (mulf a a) (constant (F := Ideal) ⟨0, ![]⟩ .f32 0x00000000#32) hrt h0) (ix2 p z)
      = ∑ k : Fin N, row a p k * row a p k :=
    (hostCol_apply _ hb1 p z).trans (hostSum_apply (mulf a a) hrt hr h0 p)
  have h2 : broadcastInDim ⟨2, ![M, 1]⟩ ![] hbs (constant (F := Ideal) ⟨0, ![]⟩ .f32 cN) (ix2 p z) = Ideal.ofBits .f32 cN :=
    scalarBroadcast_apply _ hbs (ix2 p z)
  have h3 : broadcastInDim ⟨2, ![M, 1]⟩ ![] hbs (constant (F := Ideal) ⟨0, ![]⟩ .f32 ce) (ix2 p z) = Ideal.ofBits .f32 ce :=
    scalarBroadcast_apply _ hbs (ix2 p z)
  show Ideal.rsqrt (Ideal.div
      (broadcastInDim ⟨2, ![M, 1]⟩ ![0] hb1 (Host.reduceAdd (mulf a a) (constant (F := Ideal) ⟨0, ![]⟩ .f32 0x00000000#32) hrt h0) (ix2 p z))
      (broadcastInDim ⟨2, ![M, 1]⟩ ![] hbs (constant (F := Ideal) ⟨0, ![]⟩ .f32 cN) (ix2 p z))
    + broadcastInDim ⟨2, ![M, 1]⟩ ![] hbs (constant (F := Ideal) ⟨0, ![]⟩ .f32 ce) (ix2 p z)) = _
  rw [h1, h2, h3]
  rfl

/-- Root-mean-square normalisation of the rows of `a` with gain `g`, as the host computes it. -/
def hostNorm {M N : ℕ} (cN ce : BitVec 32) (a : FVec Ideal ⟨2, ![M, N]⟩ .f32) (g : FVec Ideal ⟨1, ![N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hg : (⟨1, ![N]⟩ : Shape).BroadcastsInDim ⟨2, ![1, N]⟩ ![1])
    (hgb : (⟨2, ![1, N]⟩ : Shape).BroadcastsInDim ⟨2, ![M, N]⟩ ![0, 1]) : FVec Ideal ⟨2, ![M, N]⟩ .f32 :=
  mulf (mulf a (broadcastInDim ⟨2, ![M, N]⟩ ![0, 1] hbc (hostColScale cN ce a hrt h0 hb1 hbs)))
    (broadcastInDim ⟨2, ![M, N]⟩ ![0, 1] hgb (broadcastInDim ⟨2, ![1, N]⟩ ![1] hg g))

/-- Row `p` of the host's normalisation is rowNorm of row `p`. -/
theorem hostNorm_row {M N : ℕ} (cN ce : BitVec 32) (a : FVec Ideal ⟨2, ![M, N]⟩ .f32) (g : FVec Ideal ⟨1, ![N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hg : (⟨1, ![N]⟩ : Shape).BroadcastsInDim ⟨2, ![1, N]⟩ ![1])
    (hgb : (⟨2, ![1, N]⟩ : Shape).BroadcastsInDim ⟨2, ![M, N]⟩ ![0, 1]) (p : Fin M) :
    row (hostNorm cN ce a g hrt h0 hb1 hbs hbc hg hgb) p = rowNorm cN ce (row a p) (vec g) := by
  funext q
  have hs : broadcastInDim ⟨2, ![M, N]⟩ ![0, 1] hbc (hostColScale cN ce a hrt h0 hb1 hbs) (ix2 p q) = scale cN ce (row a p) :=
    (hostColBroadcast_apply _ hbc p q).trans (hostColScale_apply cN ce a hrt hr h0 hb1 hbs p 0)
  have hq : broadcastInDim ⟨2, ![M, N]⟩ ![0, 1] hgb (broadcastInDim ⟨2, ![1, N]⟩ ![1] hg g) (ix2 p q) = vec g q :=
    (hostRowBroadcast_apply _ hgb p q).trans (hostRow_apply g hg 0 q)
  show a (ix2 p q) * broadcastInDim ⟨2, ![M, N]⟩ ![0, 1] hbc (hostColScale cN ce a hrt h0 hb1 hbs) (ix2 p q)
      * broadcastInDim ⟨2, ![M, N]⟩ ![0, 1] hgb (broadcastInDim ⟨2, ![1, N]⟩ ![1] hg g) (ix2 p q) = _
  rw [hs, hq]
  rfl

end Cert.RmsNorm

end
-- ==== Proof.LibNormClamp.lean ====
/-
  Dividing by a clamped Euclidean norm, in its two spellings, on the extended reals.

  For a row y and a positive real ε, with s the sum of the squares of the row's entries,

      y_q · (max (s, ε²))^(-1/2)   and   y_q / max (√s, ε)

  are the same extended real for EVERY row of extended reals: the square root is monotone and √(ε²) = ε, so
  √(max (s, ε²)) = max (√s, ε) when s is a real number; and s is a real number exactly when every entry is, so an
  infinite entry makes s = +∞ and both sides 0 (the reciprocal root of +∞ is 0, and anything divided by +∞ is 0).
  No entry has to be finite, and the clamp ε² has to be exactly the square of the clamp ε.
-/
import Idealize.ShloMosaic.PureOps.Ideal
import Mathlib.Algebra.BigOperators.Fin
import Mathlib.Analysis.SpecialFunctions.Pow.Real

noncomputable section

open scoped BigOperators

namespace Cert.NormClamp

open Idealize.ShloMosaic

/-- A square of an extended real is never negative. -/
theorem mul_self_nonneg (y : EReal) : 0 ≤ y * y := by
  induction y using EReal.rec with
  | bot => simp
  | top => simp
  | coe r => rw [← EReal.coe_mul]; exact_mod_cast _root_.mul_self_nonneg r

/-- The scalar law: for s ≥ 0 bounding y², y · rsqrt (max s ε²) = y / max (√s) ε. -/
theorem clamp_law (ε : ℝ) (hε : 0 < ε) (y s : EReal) (hs : 0 ≤ s) (hys : y * y ≤ s) :
    y * Ideal.rsqrt (max s ((ε * ε : ℝ) : EReal)) = Ideal.div y (max (Ideal.sqrt s) (ε : EReal)) := by
  induction s using EReal.rec with
  | bot => exact absurd hs (by simp)
  | top =>
    rw [max_eq_left le_top, Ideal.rsqrt_top, Ideal.sqrt_top, max_eq_left le_top, mul_zero]
    unfold Ideal.div
    rw [if_neg (by simp), EReal.inv_top, mul_zero]
  | coe s =>
    have hs' : 0 ≤ s := by exact_mod_cast hs
    induction y using EReal.rec with
    | bot => exfalso; simp at hys
    | top => exfalso; simp at hys
    | coe y =>
      have hm : (0 : ℝ) < max s (ε * ε) := lt_of_lt_of_le (mul_pos hε hε) (le_max_right _ _)
      have hsq : Real.sqrt (max s (ε * ε)) = max (Real.sqrt s) ε := by
        rw [(show Monotone Real.sqrt from fun _ _ h => Real.sqrt_le_sqrt h).map_max, Real.sqrt_mul_self hε.le]
      have hd : (0 : ℝ) < max (Real.sqrt s) ε := lt_of_lt_of_le hε (le_max_right _ _)
      have cm : ∀ a b : ℝ, max (a : EReal) (b : EReal) = ((max a b : ℝ) : EReal) := fun a b =>
        (EReal.coe_strictMono.monotone.map_max).symm
      rw [cm, Ideal.rsqrt_coe, if_neg (not_lt.mpr hm.le), if_neg hm.ne', Ideal.sqrt_coe,
        if_neg (not_lt.mpr hs'), cm, Ideal.div_coe hd.ne', hsq, one_div]

/-- The law on a row: entry q times the reciprocal root of the clamped sum of squares is entry q divided by the
    clamped root of the sum of squares. -/
theorem row_law {n : ℕ} (ε : ℝ) (hε : 0 < ε) (y : Fin n → EReal) (q : Fin n) :
    y q * Ideal.rsqrt (max (∑ k, y k * y k) ((ε * ε : ℝ) : EReal))
      = Ideal.div (y q) (max (Ideal.sqrt (∑ k, y k * y k)) (ε : EReal)) :=
  clamp_law ε hε (y q) _ (Finset.sum_nonneg fun k _ => mul_self_nonneg (y k))
    (Finset.single_le_sum (f := fun k => y k * y k) (fun k _ => mul_self_nonneg (y k)) (Finset.mem_univ q))

end Cert.NormClamp

end
-- ==== Proof.LibSageMean.lean ====
/-
  A mean-aggregating graph layer and a clamped row normalisation, on picked rows and on the whole tables, over
  any sizes, on the extended reals.

  THE LAYER. A table H of M rows and K columns, a table A of neighbour sums of the same size, a column D of M
  per-row scales (the reciprocal in-degrees), two weight matrices Ws and Wn of K by N and a bias row B:

      max ( (H · Ws + (A ⊙ D) · Wn) + B , 0 ),

  where A ⊙ D multiplies row r of A by D r. Row r of the result depends on row r of H, row r of A and D r only, so
  the vector unit computing the layer on rows ρ 0, ρ 1, … (both factors of each product first converted to a
  narrower float format, which changes nothing on the extended reals) gets rows ρ 0, ρ 1, … of the layer the host
  computes on the whole tables.

  THE NORMALISATION. Each row divided by its Euclidean norm clamped below at ε, as the host spells it,
  Y / max (√(Σ Y²), ε); the vector unit multiplies instead by the reciprocal root of the sum of squares clamped
  below at a constant κ. When κ is exactly ε² the two agree on every row of extended reals (the scalar law of
  the clamped norm), so the vector unit's spelling on picked rows is the picked rows of the host's.
-/
import Idealize.ShloMosaic.PureOps.Ideal.Laws
import Idealize.ShloMosaic.Lib.Pipeline.Value
import Idealize.ShloMosaic.Lib.ValueIdx
import Idealize.ShloMosaic.Lib.ValueLayout
import proofs.«131096_j69028714381804_2_alg».proof.Proof.LibBlockRows
import proofs.«131096_j69028714381804_2_alg».proof.Proof.LibColRowBroadcast
import proofs.«131096_j69028714381804_2_alg».proof.Proof.LibRmsNorm
import proofs.«131096_j69028714381804_2_alg».proof.Proof.LibNormClamp

noncomputable section

open scoped BigOperators

namespace Cert.SageMean

open Idealize.ShloMosaic Idealize.ShloMosaic.ValueIdx Cert.BlockRows

variable {TM M K N : Nat}

/-! ## The layer -/

/-- The host's layer on the whole tables: max ((H · Ws + (A ⊙ D) · Wn) + B, 0), the column D broadcast along the
    rows of A, the row B down the rows of the sum, the zero from rank zero. -/
def layer (h0 : (⟨0, ![]⟩ : Shape).BroadcastsInDim ⟨2, ![M, N]⟩ ![])
    (h2 : (⟨2, ![1, N]⟩ : Shape).BroadcastsInDim ⟨2, ![M, N]⟩ ![0, 1])
    (hc : (⟨2, ![M, 1]⟩ : Shape).BroadcastsInDim ⟨2, ![M, K]⟩ ![0, 1])
    (H A : FVec Ideal ⟨2, ![M, K]⟩ .f32) (D : FVec Ideal ⟨2, ![M, 1]⟩ .f32)
    (Ws Wn : FVec Ideal ⟨2, ![K, N]⟩ .f32) (B : FVec Ideal ⟨2, ![1, N]⟩ .f32) : FVec Ideal ⟨2, ![M, N]⟩ .f32 :=
  relu h0 (addf (addf (propagate H Ws) (propagate (mulf A (broadcastInDim ⟨2, ![M, K]⟩ ![0, 1] hc D)) Wn))
    (broadcastInDim ⟨2, ![M, N]⟩ ![0, 1] h2 B))

/-- Scaling each picked row of A by its entry of the picked column is picking the rows of A ⊙ D. -/
theorem colScale_rows (ρ : Fin TM → Fin M)
    (hs1 : (⟨2, ![TM, K]⟩ : Shape).ShapeCasts ⟨2, ![TM, K]⟩) (hs2 : (⟨2, ![TM, 1]⟩ : Shape).ShapeCasts ⟨2, ![TM, 1]⟩)
    (hb : (⟨2, ![TM, 1]⟩ : Shape).Broadcasts ⟨2, ![TM, K]⟩)
    (hc : (⟨2, ![M, 1]⟩ : Shape).BroadcastsInDim ⟨2, ![M, K]⟩ ![0, 1])
    (A : FVec Ideal ⟨2, ![M, K]⟩ .f32) (D : FVec Ideal ⟨2, ![M, 1]⟩ .f32) :
    mulf (shapeCast ⟨2, ![TM, K]⟩ (rowsOf ρ A) hs1) (broadcastTo ⟨2, ![TM, K]⟩ (shapeCast ⟨2, ![TM, 1]⟩ (rowsOf ρ D) hs2) hb)
      = rowsOf ρ (mulf A (broadcastInDim ⟨2, ![M, K]⟩ ![0, 1] hc D)) := by
  rw [shapeCast_self, shapeCast_self]
  funext j
  obtain ⟨p, k, rfl⟩ : ∃ (p : Fin TM) (k : Fin K), j = ix2 p k := ⟨j 0, j 1, eq_ix2 j⟩
  show A (ix2 (ρ p) k) * broadcastTo ⟨2, ![TM, K]⟩ (rowsOf ρ D) hb (ix2 p k)
    = A (ix2 (ρ p) k) * broadcastInDim ⟨2, ![M, K]⟩ ![0, 1] hc D (ix2 (ρ p) k)
  rw [Cert.ColRowBroadcast.colBroadcast_apply, Cert.RmsNorm.hostColBroadcast_apply]
  rfl

/-- The bias row broadcast down the picked rows is the picked rows of the row broadcast down all rows. -/
theorem bias_rows (ρ : Fin TM → Fin M) (hs : (⟨2, ![1, N]⟩ : Shape).ShapeCasts ⟨2, ![1, N]⟩)
    (hb : (⟨2, ![1, N]⟩ : Shape).Broadcasts ⟨2, ![TM, N]⟩)
    (h2 : (⟨2, ![1, N]⟩ : Shape).BroadcastsInDim ⟨2, ![M, N]⟩ ![0, 1]) (B : FVec Ideal ⟨2, ![1, N]⟩ .f32) :
    broadcastTo ⟨2, ![TM, N]⟩ (shapeCast ⟨2, ![1, N]⟩ B hs) hb = rowsOf ρ (broadcastInDim ⟨2, ![M, N]⟩ ![0, 1] h2 B) := by
  rw [shapeCast_self]
  funext j
  obtain ⟨p, c, rfl⟩ : ∃ (p : Fin TM) (c : Fin N), j = ix2 p c := ⟨j 0, j 1, eq_ix2 j⟩
  rw [broadcastTo_1b_ab_apply, rowsOf_apply, Cert.RmsNorm.hostRowBroadcast_apply]

/-- THE LAYER ON PICKED ROWS: the vector unit's spelling — both factors of each product converted to a narrower
    format, the matrix unit's products into zeros, the scale column and the bias row broadcast over the block, the
    maximum with a splat zero — on rows ρ is rows ρ of the host's layer. The block `h` of H may be held in any
    float format: it is given by what it holds, entry by entry. -/
theorem layer_rows (ρ : Fin TM → Fin M) {φ₁ ψ : FTy} (hψ : ψ.bits < FTy.f32.bits)
    (hs1 : (⟨2, ![TM, K]⟩ : Shape).ShapeCasts ⟨2, ![TM, K]⟩) (hs2 : (⟨2, ![TM, 1]⟩ : Shape).ShapeCasts ⟨2, ![TM, 1]⟩)
    (hs3 : (⟨2, ![1, N]⟩ : Shape).ShapeCasts ⟨2, ![1, N]⟩)
    (hb : (⟨2, ![TM, 1]⟩ : Shape).Broadcasts ⟨2, ![TM, K]⟩) (hb2 : (⟨2, ![1, N]⟩ : Shape).Broadcasts ⟨2, ![TM, N]⟩)
    (h0 : (⟨0, ![]⟩ : Shape).BroadcastsInDim ⟨2, ![M, N]⟩ ![])
    (h2 : (⟨2, ![1, N]⟩ : Shape).BroadcastsInDim ⟨2, ![M, N]⟩ ![0, 1])
    (hc : (⟨2, ![M, 1]⟩ : Shape).BroadcastsInDim ⟨2, ![M, K]⟩ ![0, 1])
    (H A : FVec Ideal ⟨2, ![M, K]⟩ .f32) (D : FVec Ideal ⟨2, ![M, 1]⟩ .f32)
    (Ws Wn : FVec Ideal ⟨2, ![K, N]⟩ .f32) (B : FVec Ideal ⟨2, ![1, N]⟩ .f32)
    (h : FVec Ideal ⟨2, ![TM, K]⟩ φ₁) (hh : ∀ (p : Fin TM) (k : Fin K), (h (ix2 p k) : EReal) = H (ix2 (ρ p) k)) :
    maximumf (addf (addf
          (matmul (DotDims.plain TM K N) none h (truncf ψ Ws hψ) (constant ⟨2, ![TM, N]⟩ .f32 0x00000000#32))
          (matmul (DotDims.plain TM K N) none
            (truncf ψ (mulf (shapeCast ⟨2, ![TM, K]⟩ (rowsOf ρ A) hs1)
              (broadcastTo ⟨2, ![TM, K]⟩ (shapeCast ⟨2, ![TM, 1]⟩ (rowsOf ρ D) hs2) hb)) hψ)
            (truncf ψ Wn hψ) (constant ⟨2, ![TM, N]⟩ .f32 0x00000000#32)))
        (broadcastTo ⟨2, ![TM, N]⟩ (shapeCast ⟨2, ![1, N]⟩ B hs3) hb2))
      (broadcast ⟨2, ![TM, N]⟩ (Scalar.ofBits (F := Ideal) .f32 0x00000000#32))
      = rowsOf ρ (layer h0 h2 hc H A D Ws Wn B) := by
  rw [colScale_rows ρ hs1 hs2 hb hc A D, bias_rows ρ hs3 hb2 h2 B,
    matmul_rows ρ none none h (truncf ψ Ws hψ) H Ws hh (fun _ _ => rfl),
    matmul_rows ρ none none (truncf ψ (rowsOf ρ (mulf A (broadcastInDim ⟨2, ![M, K]⟩ ![0, 1] hc D))) hψ) (truncf ψ Wn hψ)
      (mulf A (broadcastInDim ⟨2, ![M, K]⟩ ![0, 1] hc D)) Wn (fun _ _ => rfl) (fun _ _ => rfl),
    addf_rows, addf_rows]
  exact relu_rows ρ h0 _

/-! ## The clamped normalisation -/

/-- The host's normalisation of the rows of Y: Y / max (√(Σ_k Y², from 0), ε), ε the f32 word `e`, the sum laid
    back as a column and the quotient's column broadcast along the rows. -/
def normalized (e : BitVec 32) (hrt : (⟨2, ![M, N]⟩ : Shape).ReducesTo [1] (⟨1, ![M]⟩ : Shape))
    (hpos : 0 < (⟨0, ![]⟩ : Shape).numel)
    (hv : (⟨1, ![M]⟩ : Shape).BroadcastsInDim ⟨2, ![M, 1]⟩ ![0])
    (h01 : (⟨0, ![]⟩ : Shape).BroadcastsInDim ⟨2, ![M, 1]⟩ ![])
    (hcN : (⟨2, ![M, 1]⟩ : Shape).BroadcastsInDim ⟨2, ![M, N]⟩ ![0, 1])
    (Y : FVec Ideal ⟨2, ![M, N]⟩ .f32) : FVec Ideal ⟨2, ![M, N]⟩ .f32 :=
  Host.divf Y (broadcastInDim ⟨2, ![M, N]⟩ ![0, 1] hcN
    (maximumf (Host.sqrt (broadcastInDim ⟨2, ![M, 1]⟩ ![0] hv
        (Host.reduceAdd (mulf Y Y) (constant (F := Ideal) ⟨0, ![]⟩ .f32 0x00000000#32) hrt hpos)))
      (broadcastInDim ⟨2, ![M, 1]⟩ ![] h01 (constant (F := Ideal) ⟨0, ![]⟩ .f32 e))))

/-- THE NORMALISATION ON PICKED ROWS: the vector unit's spelling — the lane sum of squares from zero laid as a
    column, the maximum with a splat κ, the reciprocal root, broadcast along the lanes and multiplied in — on rows ρ
    of Y is rows ρ of the host's normalisation, when κ is exactly the square of the host's clamp ε > 0. -/
theorem normalized_rows (ρ : Fin TM → Fin M) (e : BitVec 32) (ε : ℝ) (hε : 0 < ε)
    (he : Ideal.ofBits .f32 e = ((ε : ℝ) : EReal)) (κv : Ideal .f32) (hκ : (κv : EReal) = ((ε * ε : ℝ) : EReal))
    (hr : (⟨2, ![TM, N]⟩ : Shape).Reduces [1] (⟨1, ![TM]⟩ : Shape)) (hφ : FKind.Formats .f32)
    (hacc : (0x00000000#32 : BitVec (FTy.bits .f32)) = FKind.add.neutral .f32 hφ)
    (hsc : (⟨1, ![TM]⟩ : Shape).ShapeCasts ⟨2, ![TM, 1]⟩)
    (hbN : (⟨2, ![TM, 1]⟩ : Shape).Broadcasts ⟨2, ![TM, N]⟩)
    (hrt : (⟨2, ![M, N]⟩ : Shape).ReducesTo [1] (⟨1, ![M]⟩ : Shape))
    (hrM : (⟨2, ![M, N]⟩ : Shape).Reduces [1] (⟨1, ![M]⟩ : Shape))
    (hpos : 0 < (⟨0, ![]⟩ : Shape).numel)
    (hv : (⟨1, ![M]⟩ : Shape).BroadcastsInDim ⟨2, ![M, 1]⟩ ![0])
    (h01 : (⟨0, ![]⟩ : Shape).BroadcastsInDim ⟨2, ![M, 1]⟩ ![])
    (hcN : (⟨2, ![M, 1]⟩ : Shape).BroadcastsInDim ⟨2, ![M, N]⟩ ![0, 1])
    (Y : FVec Ideal ⟨2, ![M, N]⟩ .f32) :
    mulf (rowsOf ρ Y) (broadcastTo ⟨2, ![TM, N]⟩
        (rsqrt (maximumf (shapeCast ⟨2, ![TM, 1]⟩
            (multiReduction .add [1] ⟨1, ![TM]⟩ (mulf (rowsOf ρ Y) (rowsOf ρ Y)) 0x00000000#32 hr hφ hacc) hsc)
          (broadcast ⟨2, ![TM, 1]⟩ κv))) hbN)
      = rowsOf ρ (normalized e hrt hpos hv h01 hcN Y) := by
  funext j
  obtain ⟨p, c, rfl⟩ : ∃ (p : Fin TM) (c : Fin N), j = ix2 p c := ⟨j 0, j 1, eq_ix2 j⟩
  have hl : (shapeCast ⟨2, ![TM, 1]⟩
      (multiReduction .add [1] ⟨1, ![TM]⟩ (mulf (rowsOf ρ Y) (rowsOf ρ Y)) 0x00000000#32 hr hφ hacc) hsc) (ix2 p (0 : Fin 1))
      = ∑ k : Fin N, Y (ix2 (ρ p) k) * Y (ix2 (ρ p) k) := by
    rw [Cert.ColRowBroadcast.colCast_apply, Cert.RmsNorm.laneSum_apply]
    rfl
  have hh : (broadcastInDim ⟨2, ![M, 1]⟩ ![0] hv
        (Host.reduceAdd (mulf Y Y) (constant (F := Ideal) ⟨0, ![]⟩ .f32 0x00000000#32) hrt hpos)) (ix2 (ρ p) (0 : Fin 1))
      = ∑ k : Fin N, Y (ix2 (ρ p) k) * Y (ix2 (ρ p) k) := by
    rw [Cert.RmsNorm.hostCol_apply, Cert.RmsNorm.hostSum_apply (mulf Y Y) hrt hrM hpos (ρ p)]
    rfl
  have hc : (broadcastInDim ⟨2, ![M, 1]⟩ ![] h01 (constant (F := Ideal) ⟨0, ![]⟩ .f32 e)) (ix2 (ρ p) (0 : Fin 1))
      = ((ε : ℝ) : EReal) := by
    rw [Cert.RmsNorm.scalarBroadcast_apply]
    exact he
  show Y (ix2 (ρ p) c) * broadcastTo ⟨2, ![TM, N]⟩ _ hbN (ix2 p c) = _
  rw [Cert.ColRowBroadcast.colBroadcast_apply, rowsOf_apply]
  show Y (ix2 (ρ p) c) * Ideal.rsqrt (max ((shapeCast ⟨2, ![TM, 1]⟩ _ hsc) (ix2 p (0 : Fin 1))) κv)
    = Ideal.div (Y (ix2 (ρ p) c)) (broadcastInDim (s := ⟨2, ![M, 1]⟩) ⟨2, ![M, N]⟩ ![0, 1] hcN _ (ix2 (ρ p) c))
  rw [Cert.RmsNorm.hostColBroadcast_apply, hl, hκ]
  show _ = Ideal.div (Y (ix2 (ρ p) c)) (max (Ideal.sqrt ((broadcastInDim (s := ⟨1, ![M]⟩) ⟨2, ![M, 1]⟩ ![0] hv _) (ix2 (ρ p) (0 : Fin 1))))
    ((broadcastInDim ⟨2, ![M, 1]⟩ ![] h01 (constant (F := Ideal) ⟨0, ![]⟩ .f32 e)) (ix2 (ρ p) (0 : Fin 1))))
  rw [hh, hc]
  exact Cert.NormClamp.row_law ε hε (fun k => Y (ix2 (ρ p) k)) c

end Cert.SageMean

end
-- ==== Proof.Layer1Value.lean ====
/-
  The first layer's grid, read as one array.

  The grid has 25 points; point t stages rows 4000·t … 4000·t + 3999 of the node table, of the neighbour sums and
  of the column of reciprocal degrees, and the two weight matrices and the bias row whole, and writes back rows
  4000·t … 4000·t + 3999 of the output. What it writes is the layer computed on those rows, and a row of the layer
  depends on the same row of its operands only: so the block is rows 4000·t … of the layer computed on the whole
  tables, the 25 blocks tile the output, and after the grid the output array is the layer of the arrays the grid
  was entered with — whatever those are.
-/
import proofs.«131096_j69028714381804_2_alg».proof.Proof.Gen.KernelIdeal.Frame
import proofs.«131096_j69028714381804_2_alg».proof.Proof.LibSageMean
import Idealize.ShloMosaic.Lib.Pipeline.Value

set_option maxRecDepth 16384

noncomputable section

namespace Cert.KernelIdeal.Layer1

open Cert.KernelIdeal Cert.KernelIdeal.Gen
open Idealize.ShloMosaic Idealize.ShloMosaic.TcCoe Idealize.SL.Sem Idealize.ShloMosaic.ValueIdx Cert.BlockRows
open Idealize.ShloMosaic.Pipeline (Dat)

-- the arrays the grid is entered with: any
variable (V : (c : Dev nD) → (b : Ref sig .tc) → Buf (Elt Ideal) ((c : Thread nD τ).loc b))

theorem hz : (![0, 0] : Fin 2 → Nat) = fun _ => 0 := funext fun a => by fin_cases a <;> rfl

theorem hN : cfg0.N = 25 := N_0

/-- Row p of point t's blocks is row 4000·t + p of the arrays. -/
def rows (t : Fin cfg0.N) : Fin 4000 → Fin 100000 := blockRow 4000 25 100000 (by decide) (Fin.cast hN t)

theorem rows_val (t : Fin cfg0.N) (p : Fin 4000) : (rows t p).val = 4000 * t.val + p.val := rfl

/-- The printed index maps over the grid: the row-blocked windows sit at block (t, 0), the others at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The operands as the grid finds them. -/
abbrev tblH (c : Dev nD) : FVec Ideal S100000x128 .f32 := V c main_arg0
abbrev tblA (c : Dev nD) : FVec Ideal S100000x128 .f32 := V c main_v18
abbrev colD (c : Dev nD) : FVec Ideal S100000x1 .f32 := V c main_v8
abbrev matWs (c : Dev nD) : FVec Ideal S128x128 .f32 := V c main_arg3
abbrev matWn (c : Dev nD) : FVec Ideal S128x128 .f32 := V c main_arg4
abbrev rowB (c : Dev nD) : FVec Ideal S1x128 .f32 := V c main_v19

/-- Point t's block of the node table is rows 4000·t … of the table. -/
theorem blk0 (c : Dev nD) (t : Fin cfg0.N) : iblk0 V c 0 t = rowsOf (rows t) (tblH V c) := by
  obtain ⟨e0, e1, -⟩ := idx_facts t
  funext y
  show V c main_arg0 (((cfg0.win 0).blk t).view.emb y) = V c main_arg0 (ix2 (rows t (y 0)) (y 1))
  refine congrArg (V c main_arg0) (funext fun a => Fin.ext ?_)
  match a with
  | ⟨0, _⟩ => show win0_0.index t (0 : Fin 2) * 4000 + 1 * (y 0).val = 4000 * t.val + (y 0).val; omega
  | ⟨1, _⟩ => show win0_0.index t (1 : Fin 2) * 128 + 1 * (y 1).val = (y 1).val; omega

/-- Point t's block of the neighbour sums is rows 4000·t … of them. -/
theorem blk1 (c : Dev nD) (t : Fin cfg0.N) : iblk0 V c 1 t = rowsOf (rows t) (tblA V c) := by
  obtain ⟨-, -, e0, e1, -⟩ := idx_facts t
  funext y
  show V c main_v18 (((cfg0.win 1).blk t).view.emb y) = V c main_v18 (ix2 (rows t (y 0)) (y 1))
  refine congrArg (V c main_v18) (funext fun a => Fin.ext ?_)
  match a with
  | ⟨0, _⟩ => show win0_1.index t (0 : Fin 2) * 4000 + 1 * (y 0).val = 4000 * t.val + (y 0).val; omega
  | ⟨1, _⟩ => show win0_1.index t (1 : Fin 2) * 128 + 1 * (y 1).val = (y 1).val; omega

/-- Point t's block of the column of scales is rows 4000·t … of the column. -/
theorem blk5 (c : Dev nD) (t : Fin cfg0.N) : iblk0 V c 5 t = rowsOf (rows t) (colD V c) := by
  obtain ⟨-, -, -, -, -, -, -, -, -, -, e0, e1, -⟩ := idx_facts t
  funext y
  show V c main_v8 (((cfg0.win 5).blk t).view.emb y) = V c main_v8 (ix2 (rows t (y 0)) (y 1))
  refine congrArg (V c main_v8) (funext fun a => Fin.ext ?_)
  match a with
  | ⟨0, _⟩ => show win0_5.index t (0 : Fin 2) * 4000 + 1 * (y 0).val = 4000 * t.val + (y 0).val; omega
  | ⟨1, _⟩ => show win0_5.index t (1 : Fin 2) * 1 + 1 * (y 1).val = (y 1).val; omega

/-- The first weight matrix is staged whole at every point. -/
theorem blk2 (c : Dev nD) (t : Fin cfg0.N) : iblk0 V c 2 t = matWs V c := by
  obtain ⟨-, -, -, -, e0, e1, -⟩ := idx_facts t
  funext y
  show V c main_arg3 (((cfg0.win 2).blk t).view.emb y) = V c main_arg3 y
  refine congrArg (V c main_arg3) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The second weight matrix is staged whole at every point. -/
theorem blk3 (c : Dev nD) (t : Fin cfg0.N) : iblk0 V c 3 t = matWn V c := by
  obtain ⟨-, -, -, -, -, -, e0, e1, -⟩ := idx_facts t
  funext y
  show V c main_arg4 (((cfg0.win 3).blk t).view.emb y) = V c main_arg4 y
  refine congrArg (V c main_arg4) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The bias row is staged whole at every point. -/
theorem blk4 (c : Dev nD) (t : Fin cfg0.N) : iblk0 V c 4 t = rowB V c := by
  obtain ⟨-, -, -, -, -, -, -, -, e0, e1, -⟩ := idx_facts t
  funext y
  show V c main_v19 (((cfg0.win 4).blk t).view.emb y) = V c main_v19 y
  refine congrArg (V c main_v19) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- The layer of the arrays the grid is entered with, stored in the narrower float format (a change of format is
    the identity on the extended reals). -/
def out (c : Dev nD) : FVec Ideal S100000x128 .bf16 :=
  truncf .bf16 (Cert.SageMean.layer (M := 100000) (K := 128) (N := 128) bcast_S_S100000x128 (by decide) (by decide)
    (tblH V c) (tblA V c) (colD V c) (matWs V c) (matWn V c) (rowB V c)) bitsLt_bf16_f32

/-- A block of the output array read through point t's rectangle is rows 4000·t … of the array. -/
theorem read_out (t : Fin cfg0.N) (G : FVec Ideal S100000x128 .bf16) :
    ((cfg0.win 6).blk t).view.read (Elt Ideal) G = rowsOf (rows t) G := by
  obtain ⟨-, -, -, -, -, -, -, -, -, -, -, -, e0, e1⟩ := idx_facts t
  funext y
  show G (((cfg0.win 6).blk t).view.emb y) = G (ix2 (rows t (y 0)) (y 1))
  refine congrArg G (funext fun a => Fin.ext ?_)
  match a with
  | ⟨0, _⟩ => show win0_6.index t (0 : Fin 2) * 4000 + 1 * (y 0).val = 4000 * t.val + (y 0).val; omega
  | ⟨1, _⟩ => show win0_6.index t (1 : Fin 2) * 128 + 1 * (y 1).val = (y 1).val; omega

/-- The printed contraction is the plain M × K by K × N one. -/
theorem dot_eq : dot_S4000x128_S128x128_S4000x128_1_0_0_1_n_n = DotDims.plain 4000 128 128 := rfl

/-- The body's stored value, spelt out over any loaded blocks. -/
theorem pay_eq (x0 x1 : Vec Ideal S4000x128 .f32) (x5 : Vec Ideal S4000x1 .f32) (x2 x3 : Vec Ideal S128x128 .f32)
    (x4 : Vec Ideal S1x128 .f32) :
    k0_pay1 x0 x1 x5 x2 x3 x4 = truncf .bf16 (maximumf (addf (addf
          (matmul (DotDims.plain 4000 128 128) none (truncf .bf16 x0 bitsLt_bf16_f32) (truncf .bf16 x2 bitsLt_bf16_f32)
            (constant S4000x128 .f32 0x00000000#32))
          (matmul (DotDims.plain 4000 128 128) none
            (truncf .bf16 (mulf (shapeCast S4000x128 x1 shapeCasts_S4000x128_S4000x128)
              (broadcastTo S4000x128 (shapeCast S4000x1 x5 shapeCasts_S4000x1_S4000x1) broadcasts_S4000x1_S4000x128)) bitsLt_bf16_f32)
            (truncf .bf16 x3 bitsLt_bf16_f32) (constant S4000x128 .f32 0x00000000#32)))
        (broadcastTo S4000x128 (shapeCast S1x128 x4 shapeCasts_S1x128_S1x128) broadcasts_S1x128_S4000x128))
      (broadcast S4000x128 (Scalar.ofBits (F := Ideal) .f32 0x00000000#32))) bitsLt_bf16_f32 := by
  unfold k0_pay1
  rw [dot_eq]

/-- The output's blocks tile its array, so a write-back writes the whole staging buffer. -/
theorem cut_out (t : Fin cfg0.N) (X : Vec Ideal S4000x128 .bf16) : (win0 6).cut (grid0.coords t) X = X := rfl

/-- WHAT POINT t WRITES BACK is block t of the layer of the arrays the grid is entered with. -/
theorem flushed_eq (c : Dev nD) (t : Fin cfg0.N) :
    (dat0 V c).flushed 6 t = ((cfg0.win 6).blk t).view.read (Elt Ideal) (out V c) := by
  show (cfg0.win 6).cut (grid0.coords t) ((dat0 V c).after 6 t) = _
  rw [after0_6]
  unfold out0_6
  rw [View.canon_unit_zero hz]
  simp only [View.ld_unit_zero (S := S4000x128) hz, View.ld_unit_zero (S := S4000x1) hz,
    View.ld_unit_zero (S := S128x128) hz, View.ld_unit_zero (S := S1x128) hz]
  rw [blk0, blk1, blk5, blk2, blk3, blk4, read_out, cut_out, pay_eq]
  have key := Cert.SageMean.layer_rows (rows t) bitsLt_bf16_f32 shapeCasts_S4000x128_S4000x128 shapeCasts_S4000x1_S4000x1
      shapeCasts_S1x128_S1x128 broadcasts_S4000x1_S4000x128 broadcasts_S1x128_S4000x128 bcast_S_S100000x128
      (by decide : S1x128.BroadcastsInDim S100000x128 ![0, 1]) (by decide : S100000x1.BroadcastsInDim S100000x128 ![0, 1])
      (tblH V c) (tblA V c) (colD V c) (matWs V c) (matWn V c) (rowB V c)
      (truncf .bf16 (rowsOf (rows t) (tblH V c)) bitsLt_bf16_f32) (fun _ _ => rfl)
  rw [key]
  rfl

/-- An index of the output array is in point t's block iff each coordinate is in the block's range on its axis. -/
theorem mem_blk (t : Fin cfg0.N) (i : S100000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v20).slice (win0_6.rect t)).set ↔ _
  rw [View.set_slice_whole, Rect.mem_set_unit]
  exact Iff.rfl

/-- The 25 blocks tile the output: row r lies in the block of point r / 4000. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hlt : (i 0).val / 4000 < cfg0.N := by rw [hN]; omega
  obtain ⟨-, -, -, -, -, -, -, -, -, -, -, -, e0, e1⟩ := idx_facts ⟨(i 0).val / 4000, hlt⟩
  refine ⟨⟨(i 0).val / 4000, hlt⟩, flush0_6 _, ?_⟩
  rw [mem_blk]
  intro a
  match a with
  | ⟨0, _⟩ =>
    show win0_6.index ⟨(i 0).val / 4000, hlt⟩ (0 : Fin 2) * 4000 ≤ (i 0).val
      ∧ (i 0).val < win0_6.index ⟨(i 0).val / 4000, hlt⟩ (0 : Fin 2) * 4000 + 4000
    rw [e0]
    show (i 0).val / 4000 * 4000 ≤ (i 0).val ∧ (i 0).val < (i 0).val / 4000 * 4000 + 4000
    omega
  | ⟨1, _⟩ =>
    show win0_6.index ⟨(i 0).val / 4000, hlt⟩ (1 : Fin 2) * 128 ≤ (i 1).val
      ∧ (i 1).val < win0_6.index ⟨(i 0).val / 4000, hlt⟩ (1 : Fin 2) * 128 + 128
    rw [e1]
    omega

/-- THE OUTPUT ARRAY after the grid is the layer of the arrays the grid was entered with. -/
theorem final (c : Dev nD) : (dat0 V c).arrAt 6 cfg0.N = out V c :=
  (dat0 V c).arrAt_eq_of_cover 6 (out V c) (fun t _ => flushed_eq V c t) cover

end Cert.KernelIdeal.Layer1

end
-- ==== Proof.ClampConsts.lean ====
/-
  The two clamp constants as real numbers.

  The host clamps the row norm below at the f32 word 0x2B8CBCCC, which denotes 9223372 · 2⁻⁶³ = 2305843 / 2⁶¹
  (the f32 nearest to 10⁻¹²). The square of that number, 5316911940649 / 2¹²², is what the vector unit's clamp on
  the SQUARED norm has to be for the two spellings of the normalisation to agree.
-/
import Idealize.ShloMosaic.PureOps.Ideal

noncomputable section

namespace Cert.ClampConsts

open Idealize.ShloMosaic

/-- The host's clamp on the norm, as a real number. -/
def eps : ℝ := 2305843 / 2305843009213693952

theorem eps_pos : 0 < eps := by unfold eps; norm_num

/-- The f32 word 0x2B8CBCCC denotes that number. -/
theorem ofBits_eps : Ideal.ofBits .f32 0x2B8CBCCC#32 = ((eps : ℝ) : EReal) := by
  unfold eps
  simp [Ideal.ofBits, Ideal.ieee, -EReal.coe_mul]; norm_num

/-- Its square, as the fraction in lowest terms. -/
theorem eps_sq : ((5316911940649 / 5316911983139663491615228241121378304 : ℝ) : EReal) = ((eps * eps : ℝ) : EReal) := by
  unfold eps; norm_num

end Cert.ClampConsts

end
-- ==== Proof.Layer2Value.lean ====
/-
  The second layer's grid, read as one array.

  The same 25 points over the same row blocks as the first layer's grid, with two differences. The node table is
  the first layer's output, held in the narrower float format (which is the same extended reals). And after the
  layer each row is normalised: multiplied by the reciprocal root of its sum of squares clamped below at the named
  constant, which is exactly the square of the word the host clamps the norm at — so the block is rows
  4000·t … of the host's normalised layer of the whole tables, and after the grid the output array is that
  normalised layer of the arrays the grid was entered with, whatever those are.
-/
import proofs.«131096_j69028714381804_2_alg».proof.Proof.Gen.KernelIdeal.Frame
import proofs.«131096_j69028714381804_2_alg».proof.Proof.LibSageMean
import proofs.«131096_j69028714381804_2_alg».proof.Proof.ClampConsts
import Idealize.ShloMosaic.PureOps.IdealRules
import Idealize.ShloMosaic.Lib.Pipeline.Value

set_option maxRecDepth 16384

noncomputable section

namespace Cert.KernelIdeal.Layer2

open Cert.KernelIdeal Cert.KernelIdeal.Gen
open Idealize.ShloMosaic Idealize.ShloMosaic.TcCoe Idealize.SL.Sem Idealize.ShloMosaic.ValueIdx Cert.BlockRows
open Idealize.ShloMosaic.Pipeline (Dat)

-- the arrays the grid is entered with: any
variable (V : (c : Dev nD) → (b : Ref sig .tc) → Buf (Elt Ideal) ((c : Thread nD τ).loc b))

theorem hz : (![0, 0] : Fin 2 → Nat) = fun _ => 0 := funext fun a => by fin_cases a <;> rfl

theorem hN : cfg1.N = 25 := N_1

/-- Row p of point t's blocks is row 4000·t + p of the arrays. -/
def rows (t : Fin cfg1.N) : Fin 4000 → Fin 100000 := blockRow 4000 25 100000 (by decide) (Fin.cast hN t)

theorem rows_val (t : Fin cfg1.N) (p : Fin 4000) : (rows t p).val = 4000 * t.val + p.val := rfl

/-- The printed index maps over the grid: the row-blocked windows sit at block (t, 0), the others at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- The operands as the grid finds them. -/
abbrev tblH (c : Dev nD) : FVec Ideal S100000x128 .bf16 := V c main_v20
abbrev tblA (c : Dev nD) : FVec Ideal S100000x128 .f32 := V c main_v31
abbrev colD (c : Dev nD) : FVec Ideal S100000x1 .f32 := V c main_v8
abbrev matWs (c : Dev nD) : FVec Ideal S128x128 .f32 := V c main_arg6
abbrev matWn (c : Dev nD) : FVec Ideal S128x128 .f32 := V c main_arg7
abbrev rowB (c : Dev nD) : FVec Ideal S1x128 .f32 := V c main_v32

/-- Point t's block of the node table is rows 4000·t … of the table. -/
theorem blk0 (c : Dev nD) (t : Fin cfg1.N) : iblk1 V c 0 t = rowsOf (rows t) (tblH V c) := by
  obtain ⟨e0, e1, -⟩ := idx_facts t
  funext y
  show V c main_v20 (((cfg1.win 0).blk t).view.emb y) = V c main_v20 (ix2 (rows t (y 0)) (y 1))
  refine congrArg (V c main_v20) (funext fun a => Fin.ext ?_)
  match a with
  | ⟨0, _⟩ => show win1_0.index t (0 : Fin 2) * 4000 + 1 * (y 0).val = 4000 * t.val + (y 0).val; omega
  | ⟨1, _⟩ => show win1_0.index t (1 : Fin 2) * 128 + 1 * (y 1).val = (y 1).val; omega

/-- Point t's block of the neighbour sums is rows 4000·t … of them. -/
theorem blk1 (c : Dev nD) (t : Fin cfg1.N) : iblk1 V c 1 t = rowsOf (rows t) (tblA V c) := by
  obtain ⟨-, -, e0, e1, -⟩ := idx_facts t
  funext y
  show V c main_v31 (((cfg1.win 1).blk t).view.emb y) = V c main_v31 (ix2 (rows t (y 0)) (y 1))
  refine congrArg (V c main_v31) (funext fun a => Fin.ext ?_)
  match a with
  | ⟨0, _⟩ => show win1_1.index t (0 : Fin 2) * 4000 + 1 * (y 0).val = 4000 * t.val + (y 0).val; omega
  | ⟨1, _⟩ => show win1_1.index t (1 : Fin 2) * 128 + 1 * (y 1).val = (y 1).val; omega

/-- Point t's block of the column of scales is rows 4000·t … of the column. -/
theorem blk5 (c : Dev nD) (t : Fin cfg1.N) : iblk1 V c 5 t = rowsOf (rows t) (colD V c) := by
  obtain ⟨-, -, -, -, -, -, -, -, -, -, e0, e1, -⟩ := idx_facts t
  funext y
  show V c main_v8 (((cfg1.win 5).blk t).view.emb y) = V c main_v8 (ix2 (rows t (y 0)) (y 1))
  refine congrArg (V c main_v8) (funext fun a => Fin.ext ?_)
  match a with
  | ⟨0, _⟩ => show win1_5.index t (0 : Fin 2) * 4000 + 1 * (y 0).val = 4000 * t.val + (y 0).val; omega
  | ⟨1, _⟩ => show win1_5.index t (1 : Fin 2) * 1 + 1 * (y 1).val = (y 1).val; omega

/-- The first weight matrix is staged whole at every point. -/
theorem blk2 (c : Dev nD) (t : Fin cfg1.N) : iblk1 V c 2 t = matWs V c := by
  obtain ⟨-, -, -, -, e0, e1, -⟩ := idx_facts t
  funext y
  show V c main_arg6 (((cfg1.win 2).blk t).view.emb y) = V c main_arg6 y
  refine congrArg (V c main_arg6) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The second weight matrix is staged whole at every point. -/
theorem blk3 (c : Dev nD) (t : Fin cfg1.N) : iblk1 V c 3 t = matWn V c := by
  obtain ⟨-, -, -, -, -, -, e0, e1, -⟩ := idx_facts t
  funext y
  show V c main_arg7 (((cfg1.win 3).blk t).view.emb y) = V c main_arg7 y
  refine congrArg (V c main_arg7) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The bias row is staged whole at every point. -/
theorem blk4 (c : Dev nD) (t : Fin cfg1.N) : iblk1 V c 4 t = rowB V c := by
  obtain ⟨-, -, -, -, -, -, -, -, e0, e1, -⟩ := idx_facts t
  funext y
  show V c main_v32 (((cfg1.win 4).blk t).view.emb y) = V c main_v32 y
  refine congrArg (V c main_v32) (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The node table read in the wider format. -/
abbrev tblH32 (c : Dev nD) : FVec Ideal S100000x128 .f32 := extf .f32 (tblH V c) bitsLt_bf16_f32

/-- The layer of the arrays the grid is entered with. -/
def lay (c : Dev nD) : FVec Ideal S100000x128 .f32 :=
  Cert.SageMean.layer (M := 100000) (K := 128) (N := 128) bcast_S_S100000x128 (by decide) (by decide)
    (tblH32 V c) (tblA V c) (colD V c) (matWs V c) (matWn V c) (rowB V c)

/-- Its rows normalised as the host spells it, the norm clamped below at the word 0x2B8CBCCC. -/
def out (c : Dev nD) : FVec Ideal S100000x128 .f32 :=
  Cert.SageMean.normalized (M := 100000) (N := 128) 0x2B8CBCCC#32 (by decide) (by decide) (by decide) (by decide) (by decide)
    (lay V c)

/-- A block of the output array read through point t's rectangle is rows 4000·t … of the array. -/
theorem read_out (t : Fin cfg1.N) (G : FVec Ideal S100000x128 .f32) :
    ((cfg1.win 6).blk t).view.read (Elt Ideal) G = rowsOf (rows t) G := by
  obtain ⟨-, -, -, -, -, -, -, -, -, -, -, -, e0, e1⟩ := idx_facts t
  funext y
  show G (((cfg1.win 6).blk t).view.emb y) = G (ix2 (rows t (y 0)) (y 1))
  refine congrArg G (funext fun a => Fin.ext ?_)
  match a with
  | ⟨0, _⟩ => show win1_6.index t (0 : Fin 2) * 4000 + 1 * (y 0).val = 4000 * t.val + (y 0).val; omega
  | ⟨1, _⟩ => show win1_6.index t (1 : Fin 2) * 128 + 1 * (y 1).val = (y 1).val; omega

/-- The printed contraction is the plain M × K by K × N one. -/
theorem dot_eq : dot_S4000x128_S128x128_S4000x128_1_0_0_1_n_n = DotDims.plain 4000 128 128 := rfl

/-- The layer on a block, as the body computes it before the normalisation. -/
def blockLayer (x0 : FVec Ideal S4000x128 .bf16) (x1 : FVec Ideal S4000x128 .f32) (x5 : FVec Ideal S4000x1 .f32)
    (x2 x3 : FVec Ideal S128x128 .f32) (x4 : FVec Ideal S1x128 .f32) : FVec Ideal S4000x128 .f32 :=
  maximumf (addf (addf
      (matmul (DotDims.plain 4000 128 128) none (shapeCast S4000x128 x0 shapeCasts_S4000x128_S4000x128) (truncf .bf16 x2 bitsLt_bf16_f32)
        (constant S4000x128 .f32 0x00000000#32))
      (matmul (DotDims.plain 4000 128 128) none
        (truncf .bf16 (mulf (shapeCast S4000x128 x1 shapeCasts_S4000x128_S4000x128)
          (broadcastTo S4000x128 (shapeCast S4000x1 x5 shapeCasts_S4000x1_S4000x1) broadcasts_S4000x1_S4000x128)) bitsLt_bf16_f32)
        (truncf .bf16 x3 bitsLt_bf16_f32) (constant S4000x128 .f32 0x00000000#32)))
    (broadcastTo S4000x128 (shapeCast S1x128 x4 shapeCasts_S1x128_S1x128) broadcasts_S1x128_S4000x128))
  (broadcast S4000x128 (Scalar.ofBits (F := Ideal) .f32 0x00000000#32))

/-- The body's stored value, spelt out over any loaded blocks: the block's layer times the reciprocal root of its
    clamped row sums of squares. -/
theorem pay_eq (x0 : FVec Ideal S4000x128 .bf16) (x1 : FVec Ideal S4000x128 .f32) (x5 : FVec Ideal S4000x1 .f32)
    (x2 x3 : FVec Ideal S128x128 .f32) (x4 : FVec Ideal S1x128 .f32) :
    k1_pay1 x0 x1 x5 x2 x3 x4 = mulf (blockLayer x0 x1 x5 x2 x3 x4) (broadcastTo S4000x128
      (rsqrt (maximumf (shapeCast S4000x1
          (multiReduction .add [1] S4000 (mulf (blockLayer x0 x1 x5 x2 x3 x4) (blockLayer x0 x1 x5 x2 x3 x4)) 0x00000000#32
            reduces_S4000x128_S4000 (.inl rfl) rfl) shapeCasts_S4000_S4000x1)
        (broadcast S4000x1 (Named.named (F := Ideal) κ "eps_sq" (φ := .f32) 0x179ABE15#32)))) broadcasts_S4000x1_S4000x128) := by
  unfold k1_pay1 blockLayer
  rw [dot_eq]

/-- The named clamp is the square of the host's clamp. -/
theorem named_eq : (Named.named (F := Ideal) κ "eps_sq" (φ := .f32) 0x179ABE15#32 : EReal)
    = ((Cert.ClampConsts.eps * Cert.ClampConsts.eps : ℝ) : EReal) :=
  (IdealRules.named_const.ideal_named_scalar _ _ _ _ rfl).trans Cert.ClampConsts.eps_sq

/-- The output's blocks tile its array, so a write-back writes the whole staging buffer. -/
theorem cut_out (t : Fin cfg1.N) (X : Vec Ideal S4000x128 .f32) : (win1 6).cut (grid1.coords t) X = X := rfl

/-- WHAT POINT t WRITES BACK is block t of the normalised layer of the arrays the grid is entered with. -/
theorem flushed_eq (c : Dev nD) (t : Fin cfg1.N) :
    (dat1 V c).flushed 6 t = ((cfg1.win 6).blk t).view.read (Elt Ideal) (out V c) := by
  show (cfg1.win 6).cut (grid1.coords t) ((dat1 V c).after 6 t) = _
  rw [after1_6]
  unfold out1_6
  rw [View.canon_unit_zero hz]
  simp only [View.ld_unit_zero (S := S4000x128) hz, View.ld_unit_zero (S := S4000x1) hz,
    View.ld_unit_zero (S := S128x128) hz, View.ld_unit_zero (S := S1x128) hz]
  rw [blk0, blk1, blk5, blk2, blk3, blk4, read_out, cut_out, pay_eq]
  have key : blockLayer (rowsOf (rows t) (tblH V c)) (rowsOf (rows t) (tblA V c)) (rowsOf (rows t) (colD V c)) (matWs V c)
      (matWn V c) (rowB V c) = rowsOf (rows t) (lay V c) := by
    unfold blockLayer lay
    exact Cert.SageMean.layer_rows (rows t) bitsLt_bf16_f32 shapeCasts_S4000x128_S4000x128 shapeCasts_S4000x1_S4000x1
      shapeCasts_S1x128_S1x128 broadcasts_S4000x1_S4000x128 broadcasts_S1x128_S4000x128 bcast_S_S100000x128
      (by decide : S1x128.BroadcastsInDim S100000x128 ![0, 1]) (by decide : S100000x1.BroadcastsInDim S100000x128 ![0, 1])
      (tblH32 V c) (tblA V c) (colD V c) (matWs V c) (matWn V c) (rowB V c)
      (shapeCast S4000x128 (rowsOf (rows t) (tblH V c)) shapeCasts_S4000x128_S4000x128)
      (fun p k => by rw [shapeCast_self]; rfl)
  rw [key]
  unfold out
  exact Cert.SageMean.normalized_rows (rows t) 0x2B8CBCCC#32 Cert.ClampConsts.eps Cert.ClampConsts.eps_pos
    Cert.ClampConsts.ofBits_eps _ named_eq reduces_S4000x128_S4000 (.inl rfl) rfl shapeCasts_S4000_S4000x1
    broadcasts_S4000x1_S4000x128 (by decide) (by decide) (by decide) (by decide) (by decide) (by decide) (lay V c)

/-- An index of the output array is in point t's block iff each coordinate is in the block's range on its axis. -/
theorem mem_blk (t : Fin cfg1.N) (i : S100000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v33).slice (win1_6.rect t)).set ↔ _
  rw [View.set_slice_whole, Rect.mem_set_unit]
  exact Iff.rfl

/-- The 25 blocks tile the output: row r lies in the block of point r / 4000. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hlt : (i 0).val / 4000 < cfg1.N := by rw [hN]; omega
  obtain ⟨-, -, -, -, -, -, -, -, -, -, -, -, e0, e1⟩ := idx_facts ⟨(i 0).val / 4000, hlt⟩
  refine ⟨⟨(i 0).val / 4000, hlt⟩, flush1_6 _, ?_⟩
  rw [mem_blk]
  intro a
  match a with
  | ⟨0, _⟩ =>
    show win1_6.index ⟨(i 0).val / 4000, hlt⟩ (0 : Fin 2) * 4000 ≤ (i 0).val
      ∧ (i 0).val < win1_6.index ⟨(i 0).val / 4000, hlt⟩ (0 : Fin 2) * 4000 + 4000
    rw [e0]
    show (i 0).val / 4000 * 4000 ≤ (i 0).val ∧ (i 0).val < (i 0).val / 4000 * 4000 + 4000
    omega
  | ⟨1, _⟩ =>
    show win1_6.index ⟨(i 0).val / 4000, hlt⟩ (1 : Fin 2) * 128 ≤ (i 1).val
      ∧ (i 1).val < win1_6.index ⟨(i 0).val / 4000, hlt⟩ (1 : Fin 2) * 128 + 128
    rw [e1]
    omega

/-- THE OUTPUT ARRAY after the grid is the normalised layer of the arrays the grid was entered with. -/
theorem final (c : Dev nD) : (dat1 V c).arrAt 6 cfg1.N = out V c :=
  (dat1 V c).arrAt_eq_of_cover 6 (out V c) (fun t _ => flushed_eq V c t) cover

end Cert.KernelIdeal.Layer2

end
-- ==== Proof.HostValues.lean ====
/-
  What the host operations around the two grids leave in the arrays the grids stage.

  Before the first grid the host computes, from the edge lists alone, the column of reciprocal in-degrees
  1 / max (deg, 1), and from the node table the neighbour sums: the rows of the table gathered at the edges'
  sources (a negative source counted from the end) and added up at the edges' destinations; and it lays the first
  bias as a row. Between the grids it computes the neighbour sums again, of the first grid's output (gathered in the
  narrower format and widened, which is the same extended reals), and lays the second bias as a row. The sums and
  the degrees are kept here as the host's own operations, named and never opened: the reference computes them by
  the same operations.
-/
import proofs.«131096_j69028714381804_2_alg».proof.Proof.Gen.KernelIdeal.Frame
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

/-- An edge list: 1600000 node numbers as 32-bit words. -/
abbrev Edges := (⟨S1600000, .i32⟩ : BufTy).Contents (Elt Ideal)

/-- The in-degree of every node: ones added up at the edges' destinations. -/
def degree (dst : Edges) : FVec Ideal S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 dst)
    (broadcastInDim S1600000 ![] bcast_S_S1600000 (constant S_ .f32 0x3F800000#32))

/-- 1 / max (deg, 1), per node. -/
def invDeg (dst : Edges) : FVec Ideal S100000 .f32 :=
  Host.divf (broadcastInDim S100000 ![] bcast_S_S100000 (constant S_ .f32 0x3F800000#32))
    (maximumf (degree dst) (broadcastInDim S100000 ![] bcast_S_S100000 (constant S_ .f32 0x3F800000#32)))

/-- The edges' sources as a column of row numbers, a negative one counted from the end of the table. -/
def srcRows (src : Edges) : (⟨S1600000x1, .i32⟩ : BufTy).Contents (Elt Ideal) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Rows added up at the edges' destinations, from zero. -/
def sumAt (dst : Edges) (rows : FVec Ideal S1600000x128 .f32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst) rows

/-- The neighbour sums of a node table: its rows gathered at the sources, added up at the destinations. -/
def neighbourSum (h : FVec Ideal S100000x128 .f32) (src dst : Edges) : FVec Ideal S100000x128 .f32 :=
  sumAt dst (Host.gather gather_S100000x128_S1600000x1_S1600000x128_1_0_n_n_0_1_1128 h (srcRows src))

variable (m : (ℓ : Loc nD τ sig) → Buf (Elt Ideal) ℓ) (ρ : Dev nD → PrngReg)

/-! ## Entering the first grid -/

set_option maxHeartbeats 4000000 in
theorem V1_arg0 (c : Dev nD) : V1 m ρ c main_arg0 = m ((c : Thread nD τ).loc main_arg0) := by
  show StableHlo.after hostOps0 (W0 m ρ c) (Proc.devRef .tc main_arg0) = _
  after_results_simp <;> rfl

set_option maxHeartbeats 4000000 in
theorem V1_v18 (c : Dev nD) : V1 m ρ c main_v18 = neighbourSum (m ((c : Thread nD τ).loc main_arg0))
    (m ((c : Thread nD τ).loc main_arg1)) (m ((c : Thread nD τ).loc main_arg2)) := by
  show StableHlo.after hostOps0 (W0 m ρ c) (Proc.devRef .tc main_v18) = _
  after_results_simp <;> rfl

set_option maxHeartbeats 4000000 in
theorem V1_v8 (c : Dev nD) : V1 m ρ c main_v8
    = shapeCast S100000x1 (invDeg (m ((c : Thread nD τ).loc main_arg2))) shapeCasts_S100000_S100000x1 := by
  show StableHlo.after hostOps0 (W0 m ρ c) (Proc.devRef .tc main_v8) = _
  after_results_simp <;> rfl

set_option maxHeartbeats 4000000 in
theorem V1_v19 (c : Dev nD) : V1 m ρ c main_v19
    = shapeCast S1x128 (m ((c : Thread nD τ).loc main_arg5)) shapeCasts_S128_S1x128 := by
  show StableHlo.after hostOps0 (W0 m ρ c) (Proc.devRef .tc main_v19) = _
  after_results_simp <;> rfl

set_option maxHeartbeats 4000000 in
theorem V1_arg3 (c : Dev nD) : V1 m ρ c main_arg3 = m ((c : Thread nD τ).loc main_arg3) := by
  show StableHlo.after hostOps0 (W0 m ρ c) (Proc.devRef .tc main_arg3) = _
  after_results_simp <;> rfl

set_option maxHeartbeats 4000000 in
theorem V1_arg4 (c : Dev nD) : V1 m ρ c main_arg4 = m ((c : Thread nD τ).loc main_arg4) := by
  show StableHlo.after hostOps0 (W0 m ρ c) (Proc.devRef .tc main_arg4) = _
  after_results_simp <;> rfl

/-! ## Leaving the first grid: what it does not write is as it was entered -/

set_option maxHeartbeats 4000000 in
theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results_simp <;> rfl)

set_option maxHeartbeats 4000000 in
theorem W2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results_simp <;> rfl)

set_option maxHeartbeats 4000000 in
theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results_simp <;> rfl)

set_option maxHeartbeats 4000000 in
theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results_simp <;> rfl)

set_option maxHeartbeats 4000000 in
theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results_simp <;> rfl)

/-- The column of reciprocal degrees is an input of the first grid: it leaves it as it found it. -/
theorem W2_v8 (c : Dev nD) : W2 m ρ c (Proc.devRef .tc main_v8) = V1 m ρ c main_v8 :=
  (W2_arr m ρ c 5).trans (((dat0 (V1 m ρ) c).arrAt_in 5 rfl _).trans (A_eq0 (V1 m ρ) c 5))

/-- The first grid's output array, after all its points. -/
theorem W2_v20 (c : Dev nD) : W2 m ρ c (Proc.devRef .tc main_v20) = (dat0 (V1 m ρ) c).arrAt 6 cfg0.N :=
  W2_arr m ρ c 6

/-! ## Entering the second grid -/

set_option maxHeartbeats 4000000 in
theorem V3_v20 (c : Dev nD) : V3 m ρ c main_v20 = W2 m ρ c (Proc.devRef .tc main_v20) := by
  show StableHlo.after hostOps1 (W2 m ρ c) (Proc.devRef .tc main_v20) = _
  after_results_simp <;> rfl

set_option maxHeartbeats 4000000 in
theorem V3_v8 (c : Dev nD) : V3 m ρ c main_v8 = W2 m ρ c (Proc.devRef .tc main_v8) := by
  show StableHlo.after hostOps1 (W2 m ρ c) (Proc.devRef .tc main_v8) = _
  after_results_simp <;> rfl

set_option maxHeartbeats 4000000 in
theorem V3_arg6 (c : Dev nD) : V3 m ρ c main_arg6 = W2 m ρ c (Proc.devRef .tc main_arg6) := by
  show StableHlo.after hostOps1 (W2 m ρ c) (Proc.devRef .tc main_arg6) = _
  after_results_simp <;> rfl

set_option maxHeartbeats 4000000 in
theorem V3_arg7 (c : Dev nD) : V3 m ρ c main_arg7 = W2 m ρ c (Proc.devRef .tc main_arg7) := by
  show StableHlo.after hostOps1 (W2 m ρ c) (Proc.devRef .tc main_arg7) = _
  after_results_simp <;> rfl

set_option maxHeartbeats 4000000 in
theorem V3_v32 (c : Dev nD) : V3 m ρ c main_v32
    = shapeCast S1x128 (W2 m ρ c (Proc.devRef .tc main_arg8)) shapeCasts_S128_S1x128 := by
  show StableHlo.after hostOps1 (W2 m ρ c) (Proc.devRef .tc main_v32) = _
  after_results_simp <;> rfl

set_option maxHeartbeats 4000000 in
/-- The second neighbour sums: the first grid's output gathered in its narrower format, widened, and added up. -/
theorem V3_v31 (c : Dev nD) : V3 m ρ c main_v31
    = sumAt (W2 m ρ c (Proc.devRef .tc main_arg2))
        (extf .f32 (Host.gather gather_S100000x128_S1600000x1_S1600000x128_1_0_n_n_0_1_1128
          (W2 m ρ c (Proc.devRef .tc main_v20)) (srcRows (W2 m ρ c (Proc.devRef .tc main_arg1)))) bitsLt_bf16_f32) := by
  show StableHlo.after hostOps1 (W2 m ρ c) (Proc.devRef .tc main_v31) = _
  after_results_simp <;> rfl

end Cert.KernelIdeal.Host

end
-- ==== Proof.LibSageMeanHost.lean ====
/-
  The mean-aggregating graph layer in the host's own spelling, over any sizes, on the extended reals.

  The layer of LibSageMean takes the per-row scales as a column [M, 1] and the bias as a row [1, N]. A host program
  that holds them as vectors lays each out either by a reshape or by a broadcast along the vector's one axis: the
  two are the same column, and the same row. So the layer of the reshaped vectors is the host's expression with
  the broadcasts spelt out: products, the column broadcast along the rows of the neighbour sums, the row broadcast
  down the rows, the maximum with a zero broadcast from rank zero.
-/
import Idealize.ShloMosaic.PureOps.Ideal.Laws
import Idealize.ShloMosaic.Lib.Pipeline.Value
import Idealize.ShloMosaic.Lib.ValueIdx
import proofs.«131096_j69028714381804_2_alg».proof.Proof.LibSageMean

noncomputable section

namespace Cert.SageMean

open Idealize.ShloMosaic Idealize.ShloMosaic.ValueIdx Cert.BlockRows

variable {M K N : Nat}

/-- A vector of M numbers reshaped to a column is the same vector broadcast into a column along its one axis. -/
theorem reshape_col {α : Type} (v : (⟨1, ![M]⟩ : Shape).Idx → α) (hs : (⟨1, ![M]⟩ : Shape).ShapeCasts ⟨2, ![M, 1]⟩)
    (hv : (⟨1, ![M]⟩ : Shape).BroadcastsInDim ⟨2, ![M, 1]⟩ ![0]) :
    shapeCast ⟨2, ![M, 1]⟩ v hs = broadcastInDim ⟨2, ![M, 1]⟩ ![0] hv v := by
  funext i
  obtain ⟨p, z, rfl⟩ : ∃ (p : Fin M) (z : Fin 1), i = ix2 p z := ⟨i 0, i 1, eq_ix2 i⟩
  rw [Cert.ColRowBroadcast.colCast_apply, Cert.RmsNorm.hostCol_apply]

/-- The layer of a scale vector and a bias vector laid out by reshapes is the host's expression with both laid out
    by broadcasts. -/
theorem layer_of_vectors (h0 : (⟨0, ![]⟩ : Shape).BroadcastsInDim ⟨2, ![M, N]⟩ ![])
    (h2 : (⟨2, ![1, N]⟩ : Shape).BroadcastsInDim ⟨2, ![M, N]⟩ ![0, 1])
    (hc : (⟨2, ![M, 1]⟩ : Shape).BroadcastsInDim ⟨2, ![M, K]⟩ ![0, 1])
    (hs : (⟨1, ![M]⟩ : Shape).ShapeCasts ⟨2, ![M, 1]⟩) (hv : (⟨1, ![M]⟩ : Shape).BroadcastsInDim ⟨2, ![M, 1]⟩ ![0])
    (hs' : (⟨1, ![N]⟩ : Shape).ShapeCasts ⟨2, ![1, N]⟩) (h1 : (⟨1, ![N]⟩ : Shape).BroadcastsInDim ⟨2, ![1, N]⟩ ![1])
    (H A : FVec Ideal ⟨2, ![M, K]⟩ .f32) (d : FVec Ideal ⟨1, ![M]⟩ .f32)
    (Ws Wn : FVec Ideal ⟨2, ![K, N]⟩ .f32) (b : FVec Ideal ⟨1, ![N]⟩ .f32) :
    layer h0 h2 hc H A (shapeCast ⟨2, ![M, 1]⟩ d hs) Ws Wn (shapeCast ⟨2, ![1, N]⟩ b hs')
      = maximumf (addf (addf (Host.dotGeneral (F := Ideal) (DotDims.plain M K N) none H Ws)
            (Host.dotGeneral (F := Ideal) (DotDims.plain M K N) none
              (mulf A (broadcastInDim ⟨2, ![M, K]⟩ ![0, 1] hc (broadcastInDim ⟨2, ![M, 1]⟩ ![0] hv d))) Wn))
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) := by
  rw [reshape_col d hs hv, reshape_row b hs' h1]
  rfl

end Cert.SageMean

end
-- ==== Proof.Result.lean ====
/-
  The idealized kernel's result and the reference's result are one function of the nine arguments.

  That function (`model`): two mean-aggregating layers one after the other — each the maximum with zero of
  H · Ws + (N(H) ⊙ D) · Wn + b, with N(H) the neighbour sums of the layer's own input H and D the reciprocal
  in-degrees — and then every row divided by its Euclidean norm clamped below at the f32 word 0x2B8CBCCC.

  The kernel: its result buffer ends at the second grid's output array, which is the normalised layer of the
  arrays that grid is entered with; those are the arguments, the column of reciprocal degrees, the neighbour sums
  of the first grid's output, and that output itself — the first layer, held in the narrower float format, which
  on the extended reals is the first layer. The reference: the same operations on whole arrays, with the scale
  column and the bias rows laid out by broadcasts where the kernel's host code reshapes.
-/
import proofs.«131096_j69028714381804_2_alg».proof.Proof.KernelRun
import proofs.«131096_j69028714381804_2_alg».proof.Proof.Layer1Value
import proofs.«131096_j69028714381804_2_alg».proof.Proof.Layer2Value
import proofs.«131096_j69028714381804_2_alg».proof.Proof.HostValues
import proofs.«131096_j69028714381804_2_alg».proof.Proof.LibSageMeanHost
import proofs.«131096_j69028714381804_2_alg».proof.Proof.Gen.ReferenceIdeal.Run

set_option maxRecDepth 16384

noncomputable section

namespace Cert.KernelIdeal.Result

open Cert.KernelIdeal Cert.KernelIdeal.Gen Cert.KernelIdeal.Host
open Idealize.ShloMosaic Idealize.ShloMosaic.TcCoe Idealize.SL.Sem

abbrev Tbl := FVec Ideal S100000x128 .f32
abbrev Mat := FVec Ideal S128x128 .f32
abbrev Bias := FVec Ideal S128 .f32

/-- One layer on the whole node table: max (h · Ws + (N(h) ⊙ D) · Wn + b, 0). -/
def sageLayer (h : Tbl) (src dst : Edges) (Ws Wn : Mat) (b : Bias) : Tbl :=
  Cert.SageMean.layer (M := 100000) (K := 128) (N := 128) bcast_S_S100000x128 (by decide) (by decide) h
    (neighbourSum h src dst) (shapeCast S100000x1 (invDeg dst) shapeCasts_S100000_S100000x1) Ws Wn
    (shapeCast S1x128 b shapeCasts_S128_S1x128)

/-- Two layers, then the rows normalised. -/
def model (x : Tbl) (src dst : Edges) (W3 W4 : Mat) (b5 : Bias) (W6 W7 : Mat) (b8 : Bias) : Tbl :=
  Cert.SageMean.normalized (M := 100000) (N := 128) 0x2B8CBCCC#32 (by decide) (by decide) (by decide) (by decide) (by decide)
    (sageLayer (sageLayer x src dst W3 W4 b5) src dst W6 W7 b8)

/-- Narrowing a table and widening it back is the table, on the extended reals. -/
theorem widen_narrow (L : Tbl) : extf .f32 (truncf .bf16 L bitsLt_bf16_f32) bitsLt_bf16_f32 = L := rfl

/-- Rows gathered from the narrowed table and widened are the rows gathered from the table. -/
theorem widen_gather (L : Tbl) (idx : (⟨S1600000x1, .i32⟩ : BufTy).Contents (Elt Ideal)) :
    extf .f32 (Host.gather gather_S100000x128_S1600000x1_S1600000x128_1_0_n_n_0_1_1128 (truncf .bf16 L bitsLt_bf16_f32) idx)
      bitsLt_bf16_f32 = Host.gather gather_S100000x128_S1600000x1_S1600000x128_1_0_n_n_0_1_1128 L idx := rfl

variable (m : (ℓ : Loc nD τ sig) → Buf (Elt Ideal) ℓ) (ρ : Dev nD → PrngReg)

/-- The first grid's output array is the first layer of the arguments, in the narrower format. -/
theorem first_out (c : Dev nD) : (dat0 (V1 m ρ) c).arrAt 6 cfg0.N
    = truncf .bf16 (sageLayer (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5))) bitsLt_bf16_f32 := by
  rw [Layer1.final]
  show truncf .bf16 (Cert.SageMean.layer _ _ _ (V1 m ρ c main_arg0) (V1 m ρ c main_v18) (V1 m ρ c main_v8)
    (V1 m ρ c main_arg3) (V1 m ρ c main_arg4) (V1 m ρ c main_v19)) _ = _
  rw [V1_arg0, V1_v18, V1_v8, V1_arg3, V1_arg4, V1_v19]
  rfl

/-- The second grid's output array is the model of the arguments. -/
theorem second_out (c : Dev nD) : (dat1 (V3 m ρ) c).arrAt 6 cfg1.N
    = model (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) := by
  rw [Layer2.final]
  show Cert.SageMean.normalized _ _ _ _ _ _ (Cert.SageMean.layer _ _ _ (extf .f32 (V3 m ρ c main_v20) bitsLt_bf16_f32)
    (V3 m ρ c main_v31) (V3 m ρ c main_v8) (V3 m ρ c main_arg6) (V3 m ρ c main_arg7) (V3 m ρ c main_v32)) = _
  rw [V3_v20, V3_v31, V3_v8, V3_arg6, V3_arg7, V3_v32, W2_v20, W2_v8, W2_arg1, W2_arg2, W2_arg6, W2_arg7, W2_arg8,
    first_out, V1_v8, widen_narrow, widen_gather]
  rfl

/-- THE KERNEL'S RUN: every weakly fair execution terminates with the result buffer at the model of the arguments
    and the arguments as launched. -/
theorem run : θ_run defs (onTc (τ := τ) (main (F := Ideal))) ⟨m, fun _ => 0, ρ⟩ (fun r => ∀ c : Dev nD,
      r.2.mem ((c.tc : Thread nD τ).loc main_v33) = model (m ((c : Thread nD τ).loc main_arg0))
        (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (second_out m ρ c), (h c).2⟩) (Cert.KernelIdeal.Run.run_result m ρ)

/-- THE REFERENCE'S RESULT, its composed term of the arguments, is the model of them: its two layers are the
    layer with the scale column and the bias row laid out by broadcasts, its tail the normalisation. -/
theorem reference_eq (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v52 (F := Ideal) m' c
      = model (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8)) := by
  unfold Cert.ReferenceIdeal.Value.res_main_v52 model sageLayer
  rw [Cert.SageMean.layer_of_vectors (M := 100000) (K := 128) (N := 128) bcast_S_S100000x128 (by decide) (by decide)
      shapeCasts_S100000_S100000x1 (by decide : S100000.BroadcastsInDim S100000x1 ![0])
      shapeCasts_S128_S1x128 (by decide : S128.BroadcastsInDim S1x128 ![1]),
    Cert.SageMean.layer_of_vectors (M := 100000) (K := 128) (N := 128) bcast_S_S100000x128 (by decide) (by decide)
      shapeCasts_S100000_S100000x1 (by decide : S100000.BroadcastsInDim S100000x1 ![0])
      shapeCasts_S128_S1x128 (by decide : S128.BroadcastsInDim S1x128 ![1])]
  rfl

end Cert.KernelIdeal.Result

end
-- ==== Proof.lean ====
/-
  A two-layer mean-aggregating graph network with row normalisation: the tiled kernel against the plain reference.

  Both programs compute, from a node table x, two edge lists and two layers' weights and biases,

      h₁ = max (x · Ws₀ + (N(x) ⊙ D) · Wn₀ + b₀, 0),   h₂ = max (h₁ · Ws₁ + (N(h₁) ⊙ D) · Wn₁ + b₁, 0),

  N(h) the sum over each node's incoming edges of the source rows of h, D the reciprocal in-degrees 1 / max (deg, 1),
  and return every row of h₂ divided by its Euclidean norm clamped from below. The neighbour sums and the degrees
  are the same host operations in both programs and are never opened. The kernel computes each layer on blocks of
  4000 rows, with the products' factors rounded to a narrower format and h₁ stored in it — on the extended reals a
  change of format is the identity — and a row of a layer depends on the same row of its operands only, so the
  blocks are the rows of the layer computed on the whole tables. The one place where the two programs are
  different expressions is the normalisation: the reference divides by max (√s, ε), s the row's sum of squares
  and ε the f32 nearest to 10⁻¹², the kernel multiplies by the reciprocal root of max (s, κ). With κ read as ε²
  exactly (the named constant) these agree on every row of extended reals: √ is monotone, and a row with an
  infinite entry has s = +∞ and both sides 0. No input has to be finite for the two results to agree.

  The three frames are the generated ones (the reference's from its generated run); `preserves` is the one ledger
  entry, the named constant.
-/
import proofs.«131096_j69028714381804_2_alg».proof.Defs
import proofs.«131096_j69028714381804_2_alg».proof.Proof.Gen.Kernel
import proofs.«131096_j69028714381804_2_alg».proof.Proof.Gen.Kernel.Skeleton
import proofs.«131096_j69028714381804_2_alg».proof.Proof.Gen.Kernel.Launch
import proofs.«131096_j69028714381804_2_alg».proof.Proof.Gen.Kernel.Points
import proofs.«131096_j69028714381804_2_alg».proof.Proof.Gen.Kernel.Frame
import proofs.«131096_j69028714381804_2_alg».proof.Proof.Gen.KernelIdeal
import proofs.«131096_j69028714381804_2_alg».proof.Proof.Gen.KernelIdeal.Skeleton
import proofs.«131096_j69028714381804_2_alg».proof.Proof.Gen.KernelIdeal.Launch
import proofs.«131096_j69028714381804_2_alg».proof.Proof.Gen.KernelIdeal.Points
import proofs.«131096_j69028714381804_2_alg».proof.Proof.Gen.KernelIdeal.Frame
import proofs.«131096_j69028714381804_2_alg».proof.Proof.Gen.ReferenceIdeal
import proofs.«131096_j69028714381804_2_alg».proof.Proof.Gen.Pre_finite_inputs
import proofs.«131096_j69028714381804_2_alg».proof.Proof.Gen.ReferenceIdeal.Run
import proofs.«131096_j69028714381804_2_alg».proof.Proof.Result
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the clamp on the squared norm is named the square of the reference's clamp word. -/
theorem preserves : Cert.preserves_Kernel_KernelIdeal :=
  IdealRules.named_const.statement Cert.KernelIdeal.κ "eps_sq" .f32 0x179ABE15#32
    ((5316911940649 / 5316911983139663491615228241121378304 : ℝ) : EReal) rfl

/-- From memories that agree on the arguments both programs end with the model of the arguments in their result. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.KernelIdeal.Result.reference_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
